-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S128x64 : Shape := ⟨2, ![128, 64]⟩
abbrev S1x64 : Shape := ⟨2, ![1, 64]⟩
abbrev S100000x64 : Shape := ⟨2, ![100000, 64]⟩
abbrev S5000x64 : Shape := ⟨2, ![5000, 64]⟩
abbrev S1600000x64 : Shape := ⟨2, ![1600000, 64]⟩

abbrev nBuf : Space → Nat
  | .hbm => 48
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S128x128, .f32⟩
  | .hbm, ⟨26, _⟩ => ⟨S128x128, .f32⟩
  | .hbm, ⟨27, _⟩ => ⟨S1x128, .f32⟩
  | .hbm, ⟨28, _⟩ => ⟨S100000x128, .f32⟩
  | .hbm, ⟨29, _⟩ => ⟨S128x64, .f32⟩
  | .hbm, ⟨30, _⟩ => ⟨S128x64, .f32⟩
  | .hbm, ⟨31, _⟩ => ⟨S1x64, .f32⟩
  | .hbm, ⟨32, _⟩ => ⟨S100000x64, .f32⟩
  | .hbm, ⟨33, _⟩ => ⟨S100000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S128x64, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_c_1 : Ref sig .tc := ⟨.hbm, 34, rfl⟩
abbrev main_v22 : Ref sig .tc := ⟨.hbm, 35, rfl⟩
abbrev main_v23 : Ref sig .tc := ⟨.hbm, 36, rfl⟩
abbrev main_c_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21_0) S5000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21_1) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v31) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21_1) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 61
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S128x128, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S128x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S1x1600000, .i32⟩
  | .hbm, ⟨37, _⟩ => ⟨S1600000, .i32⟩
  | .hbm, ⟨38, _⟩ => ⟨S1x1600000, .i32⟩
  | .hbm, ⟨39, _⟩ => ⟨S1600000, .i32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S128x64, .f32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | .hbm, ⟨58, _⟩ => ⟨S128x64, .f32⟩
  | .hbm, ⟨59, _⟩ => ⟨S100000x64, .f32⟩
  | .hbm, ⟨60, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_1 : Ref sig .tc := ⟨.hbm, 40, rfl⟩
abbrev main_v27 : Ref sig .tc := ⟨.hbm, 41, rfl⟩
abbrev main_v28 : Ref sig .tc := ⟨.hbm, 42, rfl⟩
abbrev main_c_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibRowsProduct.lean ====
/-
  The product of an a × K array by a K × b array with the one axis of extent K contracted, read at the entry
  (p, u) on the extended reals: the finite sum over k of lhs (p, k) · rhs (k, u).  Two spellings of the same
  sum are read: the product a kernel forms into the zero accumulator, and the host's general dot product, which
  has no accumulator.  The operands may be typed at any float formats (on the extended reals a format is only a
  label).  The dimension record enters through its contracted rank and extent and four facts about where it
  sends an output index and a contraction index; nothing here knows a program.
-/
import Idealize.ShloMosaic.Lib.ValueIdx
import Idealize.ShloMosaic.PureOps.Ideal.Laws

noncomputable section

open scoped BigOperators

namespace Cert.RowsProduct

open Idealize.ShloMosaic Idealize.ShloMosaic.ValueIdx

variable {a K b : ℕ} {φ₁ φ₂ : FTy}

/-- With the left operand's rows following the output's rows, the right operand's columns following the output's
    columns, and the contracted coordinate running along the left operand's columns and the right operand's rows,
    the two operand indices at output entry (p, u) and contraction coordinate k are (p, k) and (k, u). -/
theorem operand_indices (D : DotDims ⟨2, ![a, K]⟩ ⟨2, ![K, b]⟩ ⟨2, ![a, b]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin a) (u : Fin b) (k : Fin K) :
    D.lhsIdx (ix2 p u) ((contrEquiv1 D K hr hs).symm k) = ix2 p k
      ∧ D.rhsIdx (ix2 p u) ((contrEquiv1 D K hr hs).symm k) = ix2 k u := by
  have hk := contrEquiv1_symm_val D K hr hs k
  refine ⟨funext fun ax => Fin.ext ?_, funext fun ax => Fin.ext ?_⟩
  · match ax with
    | ⟨0, _⟩ => exact hl0 _ _
    | ⟨1, _⟩ => exact (hl1 _ _).trans hk
  · match ax with
    | ⟨0, _⟩ => exact (hr0 _ _).trans hk
    | ⟨1, _⟩ => exact hr1 _ _

/-- The product into the zero accumulator, at entry (p, u), is Σ_k lhs (p, k) · rhs (k, u). -/
theorem matmul_zero_rows_apply (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.matmul D prec lhs rhs (constant ⟨2, ![a, b]⟩ .f32 0x00000000#32) (ix2 p u)
      = ∑ k : Fin K, lhs (ix2 p k) * rhs (ix2 k u) := by
  rw [Ideal.matmul_constant_zero_apply, ← Equiv.sum_comp (contrEquiv1 D K hr hs).symm]
  refine Finset.sum_congr rfl fun k _ => ?_
  obtain ⟨el, er⟩ := operand_indices D hr hs hl0 hl1 hr0 hr1 p u k
  rw [el, er]

/-- The host's general dot product, at entry (p, u), is the same sum, whatever its schedule key. -/
theorem dotGeneral_rows_apply (D : DotDims ⟨2, ![a, K]⟩ ⟨2, ![K, b]⟩ ⟨2, ![a, b]⟩) (prec : Option ContractPrecision)
    (sched : HostSchedule)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.dotGeneral D prec sched lhs rhs (ix2 p u) = ∑ k : Fin K, lhs (ix2 p k) * rhs (ix2 k u) := by
  rw [Ideal.dotGeneral_apply, ← Equiv.sum_comp (contrEquiv1 D K hr hs).symm]
  refine Finset.sum_congr rfl fun k _ => ?_
  obtain ⟨el, er⟩ := operand_indices D hr hs hl0 hl1 hr0 hr1 p u k
  rw [el, er]

end Cert.RowsProduct

end
-- ==== Proof.KernelPayloads.lean ====
/-
  What each of the three kernel bodies stores, read at an entry (p, u) of its 5000-row block, on the extended reals.

  Every body loads whole blocks, computes one value per output block and stores it whole, so a body is one pure
  function of its loaded blocks. At the ideal instance a change of float format is the identity and a matrix product into
  the zero accumulator is the plain finite sum over the contracted coordinate, so:
    * the first body (a graph-convolution layer) stores   max ((Σ_k a(p,k)·w(k,u) + Σ_k x(p,k)·r(k,u)) + b(0,u), 0),
      a the aggregated neighbour rows, x the node's own rows, w and r the two weight matrices laid out inputs × outputs,
      b the bias kept as one row;
    * the second body stores the two products  Σ_k h(p,k)·w(k,u)  and  Σ_k h(p,k)·r(k,u)  of one block of hidden rows;
    * the third body stores  (s(p,u) + t(p,u)) + b(0,u).
  For each product record four facts say where it sends an output index and a contraction index (rows follow rows,
  columns follow columns, the contracted coordinate runs along the left operand's columns and the right operand's rows);
  with them the product is the plain sum (LibRowsProduct).
-/
import proofs.«178896_j22565758173359_2_alg».proof.Proof.Gen.KernelIdeal.Skeleton
import proofs.«178896_j22565758173359_2_alg».proof.Proof.LibRowsProduct
import Idealize.ShloMosaic.Lib.ValueIdx
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-! ## The two product records: rows follow rows, columns follow columns, one contracted axis of extent 128 -/

theorem wide_l0 (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem wide_l1 (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
theorem wide_r0 (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
theorem wide_r1 (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

theorem narrow_l0 (j : S5000x64.Idx) (q : dot_S5000x128_S128x64_S5000x64_1_0_0_1_n_n.contr.Idx) : (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem narrow_l1 (j : S5000x64.Idx) (q : dot_S5000x128_S128x64_S5000x64_1_0_0_1_n_n.contr.Idx) : (dot_S5000x128_S128x64_S5000x64_1_0_0_1_n_n.lhsIdx j q 1).val = (q ⟨0, by decide⟩).val :=
  dot_S5000x128_S128x64_S5000x64_1_0_0_1_n_n.lhsIdx_val_of_single rfl j q
theorem narrow_r0 (j : S5000x64.Idx) (q : dot_S5000x128_S128x64_S5000x64_1_0_0_1_n_n.contr.Idx) : (dot_S5000x128_S128x64_S5000x64_1_0_0_1_n_n.rhsIdx j q 0).val = (q ⟨0, by decide⟩).val :=
  dot_S5000x128_S128x64_S5000x64_1_0_0_1_n_n.rhsIdx_val_of_single rfl j q
theorem narrow_r1 (j : S5000x64.Idx) (q : dot_S5000x128_S128x64_S5000x64_1_0_0_1_n_n.contr.Idx) : (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- The 128-wide product into the zero accumulator at entry (p, u): the sum over k of l (p, k) · r (k, u). -/
theorem wide_product {φ₁ φ₂ : FTy} (l : FVec Ideal S5000x128 φ₁) (r : FVec Ideal S128x128 φ₂) (p : Fin 5000) (u : Fin 128) :
    matmul (F := Ideal) dot_S5000x128_S128x128_S5000x128_1_0_0_1_n_n none l r (constant S5000x128 .f32 0x00000000#32) (ix2 p u)
      = ∑ k : Fin 128, l (ix2 p k) * r (ix2 k u) :=
  Cert.RowsProduct.matmul_zero_rows_apply dot_S5000x128_S128x128_S5000x128_1_0_0_1_n_n none rfl rfl wide_l0 wide_l1 wide_r0 wide_r1 l r p u

/-- The 64-wide product into the zero accumulator at entry (p, u): the sum over k of l (p, k) · r (k, u). -/
theorem narrow_product {φ₁ φ₂ : FTy} (l : FVec Ideal S5000x128 φ₁) (r : FVec Ideal S128x64 φ₂) (p : Fin 5000) (u : Fin 64) :
    matmul (F := Ideal) dot_S5000x128_S128x64_S5000x64_1_0_0_1_n_n none l r (constant S5000x64 .f32 0x00000000#32) (ix2 p u)
      = ∑ k : Fin 128, l (ix2 p k) * r (ix2 k u) :=
  Cert.RowsProduct.matmul_zero_rows_apply dot_S5000x128_S128x64_S5000x64_1_0_0_1_n_n none rfl rfl narrow_l0 narrow_l1 narrow_r0 narrow_r1 l r p u

/-! ## A bias kept as one row, broadcast down the rows -/

/-- A 1 × n row broadcast down a rows reads, at (p, u), its entry (0, u). -/
theorem rowBroadcast_apply {α : Type} {a n : ℕ} (b : (⟨2, ![1, n]⟩ : Shape).Idx → α)
    (h : (⟨2, ![1, n]⟩ : Shape).Broadcasts ⟨2, ![a, n]⟩) (p : Fin a) (u : Fin n) :
    broadcastTo ⟨2, ![a, n]⟩ b h (ix2 p u) = b (ix2 0 u) :=
  broadcastTo_apply b h (ix2 p u) (ix2 0 u) (fun ax => by
    match ax with
    | ⟨0, _⟩ => rfl
    | ⟨1, _⟩ =>
      show u.val = if n = 1 then 0 else u.val
      split
      · have := u.isLt; omega
      · rfl)

/-! ## The three bodies -/

/-- The graph-convolution body at (p, u). -/
theorem conv_apply (a x : Vec Ideal S5000x128 .f32) (w r : Vec Ideal S128x128 .f32) (b : Vec Ideal S1x128 .f32)
    (p : Fin 5000) (u : Fin 128) :
    k0_pay1 (F := Ideal) a x w r b (ix2 p u)
      = max (((∑ k : Fin 128, a (ix2 p k) * w (ix2 k u)) + ∑ k : Fin 128, x (ix2 p k) * r (ix2 k u)) + b (ix2 0 u))
          (Ideal.ofBits .f32 0x00000000#32) := by
  unfold k0_pay1
  simp only [maximumf_apply, addf_apply, broadcast_apply, wide_product, shapeCast_self, truncf_apply, rowBroadcast_apply]
  rfl

/-- The relational product of the second body at (p, u). -/
theorem rel_apply (h : Vec Ideal S5000x128 .f32) (w : Vec Ideal S128x64 .f32) (p : Fin 5000) (u : Fin 64) :
    k1_pay2 (F := Ideal) h w (ix2 p u) = ∑ k : Fin 128, h (ix2 p k) * w (ix2 k u) := by
  unfold k1_pay2 k1_pay1
  simp only [narrow_product, shapeCast_self, truncf_apply]

/-- The root product of the second body at (p, u). -/
theorem root_apply (h : Vec Ideal S5000x128 .f32) (r : Vec Ideal S128x64 .f32) (p : Fin 5000) (u : Fin 64) :
    k1_pay3 (F := Ideal) h r (ix2 p u) = ∑ k : Fin 128, h (ix2 p k) * r (ix2 k u) := by
  unfold k1_pay3 k1_pay1
  simp only [narrow_product, shapeCast_self, truncf_apply]

/-- The finalizing body at (p, u). -/
theorem finalize_apply (s t : Vec Ideal S5000x64 .f32) (b : Vec Ideal S1x64 .f32) (p : Fin 5000) (u : Fin 64) :
    k2_pay1 (F := Ideal) s t b (ix2 p u) = (s (ix2 p u) + t (ix2 p u)) + b (ix2 0 u) := by
  unfold k2_pay1
  simp only [addf_apply, shapeCast_self, rowBroadcast_apply]

end Cert.KernelIdeal.Payload

end
-- ==== Proof.KernelRegions.lean ====
/-
  Each of the three regions as ONE function of the arrays it finds.

  A region runs its body at 20 grid points; at point t every row-tiled window holds rows t·5000 … t·5000 + 4999 of its
  array (all columns), and the weight and bias windows hold their whole arrays. The body's stored value, read at (p, u)
  of the block (the payload lemmas), is therefore a function of row t·5000 + p of the row-tiled arrays and of the whole
  weight and bias arrays: the block is the restriction to those rows of one whole-array function, and since the 20
  blocks tile the 100000 rows the output array after the region IS that function:
    * region 0:  (n, u) ↦ max ((Σ_k A(n,k)·W(k,u) + Σ_k X(n,k)·R(k,u)) + B(0,u), 0);
    * region 1:  (n, u) ↦ Σ_k H(n,k)·W(k,u)   for each of its two outputs;
    * region 2:  (n, u) ↦ (S(n,u) + T(n,u)) + B(0,u).
  Everything is stated at a parameter V, the buffer contents when the region is entered, as the generated frame states
  its proof data.
-/
import proofs.«178896_j22565758173359_2_alg».proof.Proof.Gen.KernelIdeal.Frame
import proofs.«178896_j22565758173359_2_alg».proof.Proof.KernelPayloads
import Idealize.ShloMosaic.Lib.Pipeline.Value
import Idealize.ShloMosaic.Lib.ValueIdx

set_option maxRecDepth 16384

noncomputable section

open scoped BigOperators

namespace Cert.KernelIdeal.Regions

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Row p of the t-th block of 5000 rows. -/
def blockRow (t : Fin 20) (p : Fin 5000) : Fin 100000 := ⟨t.val * 5000 + p.val, by have := t.isLt; have := p.isLt; omega⟩

/-! ## The three whole-array functions -/

/-- One graph-convolution layer with a rectifier, at (n, u): weights laid out inputs × outputs, the bias one row. -/
def convAt (A X : S100000x128.Idx → EReal) (W R : S128x128.Idx → EReal) (B : S1x128.Idx → EReal)
    (n : Fin 100000) (u : Fin 128) : EReal :=
  max (((∑ k : Fin 128, A (ix2 n k) * W (ix2 k u)) + ∑ k : Fin 128, X (ix2 n k) * R (ix2 k u)) + B (ix2 0 u))
    (Ideal.ofBits .f32 0x00000000#32)

def convArr (A X : S100000x128.Idx → EReal) (W R : S128x128.Idx → EReal) (B : S1x128.Idx → EReal) :
    S100000x128.Idx → EReal :=
  fun i => convAt A X W R B ⟨(i 0).val, idx2_lt0 i⟩ ⟨(i 1).val, idx2_lt1 i⟩

/-- The hidden rows times a 128 × 64 matrix, at (n, u). -/
def prodAt (H : S100000x128.Idx → EReal) (W : S128x64.Idx → EReal) (n : Fin 100000) (u : Fin 64) : EReal :=
  ∑ k : Fin 128, H (ix2 n k) * W (ix2 k u)

def prodArr (H : S100000x128.Idx → EReal) (W : S128x64.Idx → EReal) : S100000x64.Idx → EReal :=
  fun i => prodAt H W ⟨(i 0).val, idx2_lt0 i⟩ ⟨(i 1).val, idx2_lt1 i⟩

/-- The last sum, at (n, u): two arrays and a bias row. -/
def finAt (S T : S100000x64.Idx → EReal) (B : S1x64.Idx → EReal) (n : Fin 100000) (u : Fin 64) : EReal :=
  (S (ix2 n u) + T (ix2 n u)) + B (ix2 0 u)

def finArr (S T : S100000x64.Idx → EReal) (B : S1x64.Idx → EReal) : S100000x64.Idx → EReal :=
  fun i => finAt S T B ⟨(i 0).val, idx2_lt0 i⟩ ⟨(i 1).val, idx2_lt1 i⟩

theorem convArr_apply (A X W R B) (n : Fin 100000) (u : Fin 128) : convArr A X W R B (ix2 n u) = convAt A X W R B n u := rfl
theorem prodArr_apply (H W) (n : Fin 100000) (u : Fin 64) : prodArr H W (ix2 n u) = prodAt H W n u := rfl
theorem finArr_apply (S T B) (n : Fin 100000) (u : Fin 64) : finArr S T B (ix2 n u) = finAt S T B n u := rfl

/-! ## Region 0 -/

/-- The printed index maps, decided over the grid: the row-tiled windows are at block (t, 0), the others at (0, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem read0_0 (c : Dev nD) (t : Fin cfg0.N) (p : Fin 5000) (k : Fin 128) :
    iblk0 V c 0 t (ix2 p k) = V c main_v13 (ix2 (blockRow ⟨t.val, t.isLt⟩ p) k) := by
  obtain ⟨e0, e1, -⟩ := idx0 t
  show V c main_v13 (((cfg0.win 0).blk t).view.emb (ix2 p k)) = _
  refine congrArg (V c main_v13) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem read0_1 (c : Dev nD) (t : Fin cfg0.N) (p : Fin 5000) (k : Fin 128) :
    iblk0 V c 1 t (ix2 p k) = V c main_arg0 (ix2 (blockRow ⟨t.val, t.isLt⟩ p) k) := by
  obtain ⟨-, -, e0, e1, -⟩ := idx0 t
  show V c main_arg0 (((cfg0.win 1).blk t).view.emb (ix2 p k)) = _
  refine congrArg (V c main_arg0) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

theorem read0_2 (c : Dev nD) (t : Fin cfg0.N) (k : Fin 128) (u : Fin 128) :
    iblk0 V c 2 t (ix2 k u) = V c main_v14 (ix2 k u) := by
  obtain ⟨-, -, -, -, e0, e1, -⟩ := idx0 t
  show V c main_v14 (((cfg0.win 2).blk t).view.emb (ix2 k u)) = _
  refine congrArg (V c main_v14) (funext fun a => Fin.ext ?_)
  match a with
  | ⟨0, _⟩ => show win0_2.index t (0 : Fin 2) * 128 + 1 * k.val = k.val; omega
  | ⟨1, _⟩ => show win0_2.index t (1 : Fin 2) * 128 + 1 * u.val = u.val; omega

theorem read0_3 (c : Dev nD) (t : Fin cfg0.N) (u : Fin 128) :
    iblk0 V c 3 t (ix2 0 u) = V c main_v16 (ix2 0 u) := by
  obtain ⟨-, -, -, -, -, -, e0, e1, -⟩ := idx0 t
  show V c main_v16 (((cfg0.win 3).blk t).view.emb (ix2 0 u)) = _
  refine congrArg (V c main_v16) (funext fun a => Fin.ext ?_)
  match a with
  | ⟨0, _⟩ => show win0_3.index t (0 : Fin 2) * 1 + 1 * 0 = 0; omega
  | ⟨1, _⟩ => show win0_3.index t (1 : Fin 2) * 128 + 1 * u.val = u.val; omega

theorem read0_4 (c : Dev nD) (t : Fin cfg0.N) (k : Fin 128) (u : Fin 128) :
    iblk0 V c 4 t (ix2 k u) = V c main_v15 (ix2 k u) := by
  obtain ⟨-, -, -, -, -, -, -, -, e0, e1, -⟩ := idx0 t
  show V c main_v15 (((cfg0.win 4).blk t).view.emb (ix2 k u)) = _
  refine congrArg (V c main_v15) (funext fun a => Fin.ext ?_)
  match a with
  | ⟨0, _⟩ => show win0_4.index t (0 : Fin 2) * 128 + 1 * k.val = k.val; omega
  | ⟨1, _⟩ => show win0_4.index t (1 : Fin 2) * 128 + 1 * u.val = u.val; omega

theorem emb0_5 (t : Fin cfg0.N) (p : Fin 5000) (u : Fin 128) :
    ((cfg0.win 5).blk t).view.emb (ix2 p u) = ix2 (blockRow ⟨t.val, t.isLt⟩ p) u := by
  obtain ⟨-, -, -, -, -, -, -, -, -, -, e0, e1⟩ := idx0 t
  refine funext fun a => Fin.ext ?_
  match a with
  | ⟨0, _⟩ => show win0_5.index t (0 : Fin 2) * 5000 + 1 * p.val = t.val * 5000 + p.val; omega
  | ⟨1, _⟩ => show win0_5.index t (1 : Fin 2) * 128 + 1 * u.val = u.val; omega

/-- What point t writes back is block t of the layer function of the arrays the region finds. -/
theorem flushed0 (c : Dev nD) (t : Fin cfg0.N) :
    (dat0 V c).flushed 5 t = ((cfg0.win 5).blk t).view.read (Elt Ideal)
      (convArr (V c main_v13) (V c main_arg0) (V c main_v14) (V c main_v15) (V c main_v16)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, u, rfl⟩ : ∃ (p : Fin 5000) (u : Fin 128), j = ix2 p u := ⟨j 0, j 1, eq_ix2 j⟩
  show k0_pay1 (iblk0 V c 0 t) (iblk0 V c 1 t) (iblk0 V c 2 t) (iblk0 V c 4 t) (iblk0 V c 3 t) (ix2 p u)
    = convArr (V c main_v13) (V c main_arg0) (V c main_v14) (V c main_v15) (V c main_v16) (((cfg0.win 5).blk t).view.emb (ix2 p u))
  refine (Payload.conv_apply (iblk0 V c 0 t) (iblk0 V c 1 t) (iblk0 V c 2 t) (iblk0 V c 4 t) (iblk0 V c 3 t) p u).trans ?_
  rw [emb0_5]
  show _ = convAt (V c main_v13) (V c main_arg0) (V c main_v14) (V c main_v15) (V c main_v16) (blockRow ⟨t.val, t.isLt⟩ p) u
  unfold convAt
  simp only [read0_0, read0_1, read0_2, read0_3, read0_4]

/-- An index of the array is in point t's block of output window 5 iff each coordinate is in the block's range. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v17).slice (win0_5.rect t)).set ↔ _
  rw [View.set_slice_whole, Rect.mem_set_unit]
  exact Iff.rfl

/-- Every row lies in the block of the point numbered by its quotient by 5000: the blocks tile the array. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 5000, by show (i 0).val / 5000 < 20; omega⟩
  obtain ⟨-, -, -, -, -, -, -, -, -, -, e0, e1⟩ := idx0 t
  have ht : t.val = (i 0).val / 5000 := rfl
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The hidden array after region 0. -/
theorem final0 (c : Dev nD) : (dat0 V c).arrAt 5 cfg0.N
    = convArr (V c main_v13) (V c main_arg0) (V c main_v14) (V c main_v15) (V c main_v16) :=
  (dat0 V c).arrAt_eq_of_cover 5 _ (fun t _ => flushed0 V c t) cover0

/-! ## Region 1 -/

theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem read1_0 (c : Dev nD) (t : Fin cfg1.N) (p : Fin 5000) (k : Fin 128) :
    iblk1 V c 0 t (ix2 p k) = V c main_v17 (ix2 (blockRow ⟨t.val, t.isLt⟩ p) k) := by
  obtain ⟨e0, e1, -⟩ := idx1 t
  show V c main_v17 (((cfg1.win 0).blk t).view.emb (ix2 p k)) = _
  refine congrArg (V c main_v17) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

theorem read1_1 (c : Dev nD) (t : Fin cfg1.N) (k : Fin 128) (u : Fin 64) :
    iblk1 V c 1 t (ix2 k u) = V c main_v18 (ix2 k u) := by
  obtain ⟨-, -, e0, e1, -⟩ := idx1 t
  show V c main_v18 (((cfg1.win 1).blk t).view.emb (ix2 k u)) = _
  refine congrArg (V c main_v18) (funext fun a => Fin.ext ?_)
  match a with
  | ⟨0, _⟩ => show win1_1.index t (0 : Fin 2) * 128 + 1 * k.val = k.val; omega
  | ⟨1, _⟩ => show win1_1.index t (1 : Fin 2) * 64 + 1 * u.val = u.val; omega

theorem read1_2 (c : Dev nD) (t : Fin cfg1.N) (k : Fin 128) (u : Fin 64) :
    iblk1 V c 2 t (ix2 k u) = V c main_v19 (ix2 k u) := by
  obtain ⟨-, -, -, -, e0, e1, -⟩ := idx1 t
  show V c main_v19 (((cfg1.win 2).blk t).view.emb (ix2 k u)) = _
  refine congrArg (V c main_v19) (funext fun a => Fin.ext ?_)
  match a with
  | ⟨0, _⟩ => show win1_2.index t (0 : Fin 2) * 128 + 1 * k.val = k.val; omega
  | ⟨1, _⟩ => show win1_2.index t (1 : Fin 2) * 64 + 1 * u.val = u.val; omega

theorem emb1_3 (t : Fin cfg1.N) (p : Fin 5000) (u : Fin 64) :
    ((cfg1.win 3).blk t).view.emb (ix2 p u) = ix2 (blockRow ⟨t.val, t.isLt⟩ p) u := by
  obtain ⟨-, -, -, -, -, -, e0, e1, -⟩ := idx1 t
  refine funext fun a => Fin.ext ?_
  match a with
  | ⟨0, _⟩ => show win1_3.index t (0 : Fin 2) * 5000 + 1 * p.val = t.val * 5000 + p.val; omega
  | ⟨1, _⟩ => show win1_3.index t (1 : Fin 2) * 64 + 1 * u.val = u.val; omega

theorem emb1_4 (t : Fin cfg1.N) (p : Fin 5000) (u : Fin 64) :
    ((cfg1.win 4).blk t).view.emb (ix2 p u) = ix2 (blockRow ⟨t.val, t.isLt⟩ p) u := by
  obtain ⟨-, -, -, -, -, -, -, -, e0, e1⟩ := idx1 t
  refine funext fun a => Fin.ext ?_
  match a with
  | ⟨0, _⟩ => show win1_4.index t (0 : Fin 2) * 5000 + 1 * p.val = t.val * 5000 + p.val; omega
  | ⟨1, _⟩ => show win1_4.index t (1 : Fin 2) * 64 + 1 * u.val = u.val; omega

theorem flushed1_3 (c : Dev nD) (t : Fin cfg1.N) :
    (dat1 V c).flushed 3 t = ((cfg1.win 3).blk t).view.read (Elt Ideal) (prodArr (V c main_v17) (V c main_v18)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x64) hz]
  funext j
  obtain ⟨p, u, rfl⟩ : ∃ (p : Fin 5000) (u : Fin 64), j = ix2 p u := ⟨j 0, j 1, eq_ix2 j⟩
  show k1_pay2 (iblk1 V c 0 t) (iblk1 V c 1 t) (ix2 p u)
    = prodArr (V c main_v17) (V c main_v18) (((cfg1.win 3).blk t).view.emb (ix2 p u))
  refine (Payload.rel_apply (iblk1 V c 0 t) (iblk1 V c 1 t) p u).trans ?_
  rw [emb1_3]
  show _ = prodAt (V c main_v17) (V c main_v18) (blockRow ⟨t.val, t.isLt⟩ p) u
  unfold prodAt
  simp only [read1_0, read1_1]

theorem flushed1_4 (c : Dev nD) (t : Fin cfg1.N) :
    (dat1 V c).flushed 4 t = ((cfg1.win 4).blk t).view.read (Elt Ideal) (prodArr (V c main_v17) (V c main_v19)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x64) hz]
  funext j
  obtain ⟨p, u, rfl⟩ : ∃ (p : Fin 5000) (u : Fin 64), j = ix2 p u := ⟨j 0, j 1, eq_ix2 j⟩
  show k1_pay3 (iblk1 V c 0 t) (iblk1 V c 2 t) (ix2 p u)
    = prodArr (V c main_v17) (V c main_v19) (((cfg1.win 4).blk t).view.emb (ix2 p u))
  refine (Payload.root_apply (iblk1 V c 0 t) (iblk1 V c 2 t) p u).trans ?_
  rw [emb1_4]
  show _ = prodAt (V c main_v17) (V c main_v19) (blockRow ⟨t.val, t.isLt⟩ p) u
  unfold prodAt
  simp only [read1_0, read1_2]

/-- An index of the array is in point t's block of output window 3 iff each coordinate is in the block's range. -/
theorem mem_blk1_3 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v21_0).slice (win1_3.rect t)).set ↔ _
  rw [View.set_slice_whole, Rect.mem_set_unit]
  exact Iff.rfl

/-- Every row lies in the block of the point numbered by its quotient by 5000: the blocks tile the array. -/
theorem cover1_3 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  let t : Fin cfg1.N := ⟨(i 0).val / 5000, by show (i 0).val / 5000 < 20; omega⟩
  obtain ⟨-, -, -, -, -, -, e0, e1, -⟩ := idx1 t
  have ht : t.val = (i 0).val / 5000 := rfl
  refine ⟨t, flush1_3 t, ?_⟩
  rw [mem_blk1_3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- An index of the array is in point t's block of output window 4 iff each coordinate is in the block's range. -/
theorem mem_blk1_4 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v21_1).slice (win1_4.rect t)).set ↔ _
  rw [View.set_slice_whole, Rect.mem_set_unit]
  exact Iff.rfl

/-- Every row lies in the block of the point numbered by its quotient by 5000: the blocks tile the array. -/
theorem cover1_4 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  let t : Fin cfg1.N := ⟨(i 0).val / 5000, by show (i 0).val / 5000 < 20; omega⟩
  obtain ⟨-, -, -, -, -, -, -, -, e0, e1⟩ := idx1 t
  have ht : t.val = (i 0).val / 5000 := rfl
  refine ⟨t, flush1_4 t, ?_⟩
  rw [mem_blk1_4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The relational product array after region 1. -/
theorem final1_3 (c : Dev nD) : (dat1 V c).arrAt 3 cfg1.N = prodArr (V c main_v17) (V c main_v18) :=
  (dat1 V c).arrAt_eq_of_cover 3 _ (fun t _ => flushed1_3 V c t) cover1_3

/-- The root product array after region 1. -/
theorem final1_4 (c : Dev nD) : (dat1 V c).arrAt 4 cfg1.N = prodArr (V c main_v17) (V c main_v19) :=
  (dat1 V c).arrAt_eq_of_cover 4 _ (fun t _ => flushed1_4 V c t) cover1_4

/-! ## Region 2 -/

theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem read2_0 (c : Dev nD) (t : Fin cfg2.N) (p : Fin 5000) (k : Fin 64) :
    iblk2 V c 0 t (ix2 p k) = V c main_v31 (ix2 (blockRow ⟨t.val, t.isLt⟩ p) k) := by
  obtain ⟨e0, e1, -⟩ := idx2 t
  show V c main_v31 (((cfg2.win 0).blk t).view.emb (ix2 p k)) = _
  refine congrArg (V c main_v31) (funext fun a => Fin.ext ?_)
  match a with
  | ⟨0, _⟩ => show win2_0.index t (0 : Fin 2) * 5000 + 1 * p.val = t.val * 5000 + p.val; omega
  | ⟨1, _⟩ => show win2_0.index t (1 : Fin 2) * 64 + 1 * k.val = k.val; omega

theorem read2_1 (c : Dev nD) (t : Fin cfg2.N) (p : Fin 5000) (k : Fin 64) :
    iblk2 V c 1 t (ix2 p k) = V c main_v21_1 (ix2 (blockRow ⟨t.val, t.isLt⟩ p) k) := by
  obtain ⟨-, -, e0, e1, -⟩ := idx2 t
  show V c main_v21_1 (((cfg2.win 1).blk t).view.emb (ix2 p k)) = _
  refine congrArg (V c main_v21_1) (funext fun a => Fin.ext ?_)
  match a with
  | ⟨0, _⟩ => show win2_1.index t (0 : Fin 2) * 5000 + 1 * p.val = t.val * 5000 + p.val; omega
  | ⟨1, _⟩ => show win2_1.index t (1 : Fin 2) * 64 + 1 * k.val = k.val; omega

theorem read2_2 (c : Dev nD) (t : Fin cfg2.N) (u : Fin 64) :
    iblk2 V c 2 t (ix2 0 u) = V c main_v20 (ix2 0 u) := by
  obtain ⟨-, -, -, -, e0, e1, -⟩ := idx2 t
  show V c main_v20 (((cfg2.win 2).blk t).view.emb (ix2 0 u)) = _
  refine congrArg (V c main_v20) (funext fun a => Fin.ext ?_)
  match a with
  | ⟨0, _⟩ => show win2_2.index t (0 : Fin 2) * 1 + 1 * 0 = 0; omega
  | ⟨1, _⟩ => show win2_2.index t (1 : Fin 2) * 64 + 1 * u.val = u.val; omega

theorem emb2_3 (t : Fin cfg2.N) (p : Fin 5000) (u : Fin 64) :
    ((cfg2.win 3).blk t).view.emb (ix2 p u) = ix2 (blockRow ⟨t.val, t.isLt⟩ p) u := by
  obtain ⟨-, -, -, -, -, -, e0, e1⟩ := idx2 t
  refine funext fun a => Fin.ext ?_
  match a with
  | ⟨0, _⟩ => show win2_3.index t (0 : Fin 2) * 5000 + 1 * p.val = t.val * 5000 + p.val; omega
  | ⟨1, _⟩ => show win2_3.index t (1 : Fin 2) * 64 + 1 * u.val = u.val; omega

theorem flushed2 (c : Dev nD) (t : Fin cfg2.N) :
    (dat2 V c).flushed 3 t = ((cfg2.win 3).blk t).view.read (Elt Ideal)
      (finArr (V c main_v31) (V c main_v21_1) (V c main_v20)) := by
  show (cfg2.win 3).cut (grid2.coords t) ((dat2 V c).after 3 t) = _
  rw [after2_3]
  unfold out2_3
  rw [View.canon_unit_zero hz]
  simp only [View.ld_unit_zero (S := S5000x64) hz, View.ld_unit_zero (S := S1x64) hz]
  funext j
  obtain ⟨p, u, rfl⟩ : ∃ (p : Fin 5000) (u : Fin 64), j = ix2 p u := ⟨j 0, j 1, eq_ix2 j⟩
  show k2_pay1 (iblk2 V c 0 t) (iblk2 V c 1 t) (iblk2 V c 2 t) (ix2 p u)
    = finArr (V c main_v31) (V c main_v21_1) (V c main_v20) (((cfg2.win 3).blk t).view.emb (ix2 p u))
  refine (Payload.finalize_apply (iblk2 V c 0 t) (iblk2 V c 1 t) (iblk2 V c 2 t) p u).trans ?_
  rw [emb2_3]
  show _ = finAt (V c main_v31) (V c main_v21_1) (V c main_v20) (blockRow ⟨t.val, t.isLt⟩ p) u
  unfold finAt
  simp only [read2_0, read2_1, read2_2]

/-- An index of the array is in point t's block of output window 3 iff each coordinate is in the block's range. -/
theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v32).slice (win2_3.rect t)).set ↔ _
  rw [View.set_slice_whole, Rect.mem_set_unit]
  exact Iff.rfl

/-- Every row lies in the block of the point numbered by its quotient by 5000: the blocks tile the array. -/
theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  let t : Fin cfg2.N := ⟨(i 0).val / 5000, by show (i 0).val / 5000 < 20; omega⟩
  obtain ⟨-, -, -, -, -, -, e0, e1⟩ := idx2 t
  have ht : t.val = (i 0).val / 5000 := rfl
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The result array after region 2. -/
theorem final2 (c : Dev nD) : (dat2 V c).arrAt 3 cfg2.N = finArr (V c main_v31) (V c main_v21_1) (V c main_v20) :=
  (dat2 V c).arrAt_eq_of_cover 3 _ (fun t _ => flushed2 V c t) cover2

end Cert.KernelIdeal.Regions

end
-- ==== Proof.KernelFold.lean ====
/-
  The idealized kernel's result as one term of its argument arrays.

  The last boundary's contents `Gen.W6` at the result buffer are unwound backwards through the six segments:
    * the result is the third region's output: (S + T) + b₂, S the second aggregation, T the root product, b₂ the second
      bias as one row;
    * S is computed by the host between the regions: the rows of the relational product REL gathered along the source
      column of the edge list and added into the rows the target column names, starting from zeros;
    * REL and T are the second region's outputs: the hidden array H times the two 128 × 64 matrices (the second
      layer's weights transposed by the host);
    * H is the first region's output: the rectified first layer of the first aggregation A₁, the node features x, the
      first layer's two weight matrices transposed by the host and its bias reshaped to one row;
    * A₁ is computed by the host before the first region, from x and the two columns of the edge list, exactly as S is
      from REL.
  A buffer a segment does not write keeps its contents across it; an argument is never written. The two index columns
  are computed once, before the first region, and read again after the second: the same terms of the edge list.
-/
import proofs.«178896_j22565758173359_2_alg».proof.Proof.Gen.KernelIdeal.Frame
import proofs.«178896_j22565758173359_2_alg».proof.Proof.KernelRegions
import Idealize.ShloMosaic.Lib.StableHlo.Run
import Idealize.ShloMosaic.Lib.ValueIdx

set_option maxRecDepth 16384

noncomputable section

namespace Cert.KernelIdeal.Fold

open Idealize.ShloMosaic Idealize.ShloMosaic.TcCoe Idealize.ShloMosaic.ValueIdx Idealize.ShloMosaic.Tactic
open Idealize.SL Idealize.SL.Sem
open Cert.KernelIdeal Cert.KernelIdeal.Gen Cert.KernelIdeal.Regions

/-! ## The pieces, as functions of the argument arrays -/

/-- Row 0 of the edge list as a vector of 1600000 node numbers. -/
def edgeRow0 (ei : IVec S2x1600000 32) : IVec S1600000 32 :=
  shapeCast _ (extractStridedSlice S1x1600000 ![0, 0] ei slices_S2x1600000_S1x1600000_0_0) shapeCasts_S1x1600000_S1600000
/-- Row 1 of the edge list. -/
def edgeRow1 (ei : IVec S2x1600000 32) : IVec S1600000 32 :=
  shapeCast _ (extractStridedSlice S1x1600000 ![1, 0] ei slices_S2x1600000_S1x1600000_1_0) shapeCasts_S1x1600000_S1600000
/-- The source column: row 0, a negative number counted from the end (100000 added), as a 1600000 × 1 column. -/
def srcCol (ei : IVec S2x1600000 32) : IVec S1600000x1 32 :=
  broadcastInDim S1600000x1 ![0] bcast_S1600000_S1600000x1_0
    (select (cmpi .slt (edgeRow0 ei) (broadcastInDim S1600000 ![] bcast_S_S1600000 (constantI S_ 32 0#32)))
      (addi (edgeRow0 ei) (broadcastInDim S1600000 ![] bcast_S_S1600000 (constantI S_ 32 100000#32)))
      (edgeRow0 ei))
/-- The target column: row 1 as a 1600000 × 1 column. -/
def dstCol (ei : IVec S2x1600000 32) : IVec S1600000x1 32 :=
  broadcastInDim S1600000x1 ![0] bcast_S1600000_S1600000x1_0 (edgeRow1 ei)

/-- Neighbour aggregation of a 128-wide table: gather its rows along the source column, add them into the rows the
    target column names, from zeros. -/
def aggregate128 (ei : IVec S2x1600000 32) (x : S100000x128.Idx → EReal) : S100000x128.Idx → EReal :=
  Host.scatterAdd (F := Ideal) (φ := .f32) scatter_S100000x128_S1600000x1_S1600000x128_1_0_0_1
    (broadcastInDim S100000x128 ![] bcast_S_S100000x128 (constant (F := Ideal) S_ .f32 0x00000000#32)) (dstCol ei)
    (Host.gather (α := Ideal .f32) gather_S100000x128_S1600000x1_S1600000x128_1_0_n_n_0_1_1128 x (srcCol ei))
/-- The same of a 64-wide table. -/
def aggregate64 (ei : IVec S2x1600000 32) (x : S100000x64.Idx → EReal) : S100000x64.Idx → EReal :=
  Host.scatterAdd (F := Ideal) (φ := .f32) scatter_S100000x64_S1600000x1_S1600000x64_1_0_0_1
    (broadcastInDim S100000x64 ![] bcast_S_S100000x64 (constant (F := Ideal) S_ .f32 0x00000000#32)) (dstCol ei)
    (Host.gather (α := Ideal .f32) gather_S100000x64_S1600000x1_S1600000x64_1_0_n_n_0_1_164 x (srcCol ei))

/-- The hidden array: the rectified first layer of the aggregated neighbours, the node features, the two first-layer
    weight matrices (kept outputs × inputs, transposed here) and the first bias as one row. -/
def hiddenOf (ei : IVec S2x1600000 32) (x : S100000x128.Idx → EReal) (w2 w4 : S128x128.Idx → EReal) (b3 : S128.Idx → EReal) :
    S100000x128.Idx → EReal :=
  convArr (aggregate128 ei x) x (transpose S128x128 [1, 0] w2 transposes_S128x128_S128x128_1_0)
    (transpose S128x128 [1, 0] w4 transposes_S128x128_S128x128_1_0) (shapeCast S1x128 b3 shapeCasts_S128_S1x128)
/-- A product of the hidden rows with a second-layer weight matrix (kept 64 × 128, transposed here). -/
def prodOf (h : S100000x128.Idx → EReal) (w : S64x128.Idx → EReal) : S100000x64.Idx → EReal :=
  prodArr h (transpose S128x64 [1, 0] w transposes_S64x128_S128x64_1_0)
/-- The program's result as a function of its eight argument arrays: the relational product is taken BEFORE the
    aggregation. -/
def resultOf (x : S100000x128.Idx → EReal) (ei : IVec S2x1600000 32) (w2 : S128x128.Idx → EReal) (b3 : S128.Idx → EReal)
    (w4 : S128x128.Idx → EReal) (w5 : S64x128.Idx → EReal) (b6 : S64.Idx → EReal) (w7 : S64x128.Idx → EReal) :
    S100000x64.Idx → EReal :=
  finArr (aggregate64 ei (prodOf (hiddenOf ei x w2 w4 b3) w5)) (prodOf (hiddenOf ei x w2 w4 b3) w7)
    (shapeCast S1x64 b6 shapeCasts_S64_S1x64)

variable (m : (ℓ : Loc nD τ sig) → Buf (Elt Ideal) ℓ) (ρ : Dev nD → PrngReg)

/-- The hidden array of a launch memory. -/
def hidden (c : Dev nD) : S100000x128.Idx → EReal :=
  hiddenOf (m ((c : Thread nD τ).loc main_arg1)) (m ((c : Thread nD τ).loc main_arg0)) (m ((c : Thread nD τ).loc main_arg2)) (m ((c : Thread nD τ).loc main_arg4)) (m ((c : Thread nD τ).loc main_arg3))
/-- Its relational product. -/
def rel (c : Dev nD) : S100000x64.Idx → EReal := prodOf (hidden m c) (m ((c : Thread nD τ).loc main_arg5))
/-- Its root product. -/
def root (c : Dev nD) : S100000x64.Idx → EReal := prodOf (hidden m c) (m ((c : Thread nD τ).loc main_arg7))
/-- The program's result from a launch memory. -/
def result (c : Dev nD) : S100000x64.Idx → EReal :=
  resultOf (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-! ## Before the first region -/

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results <;> rfl
theorem W1_v1 (c : Dev nD) : (W1 m ρ c (Proc.devRef .tc main_v1) : S1600000.Idx → BitVec 32) = edgeRow0 (m ((c : Thread nD τ).loc main_arg1)) := by
  show StableHlo.after hostOps0 (W0 m ρ c) (Proc.devRef .tc main_v1) = _
  after_results <;> rfl
theorem W1_v3 (c : Dev nD) : (W1 m ρ c (Proc.devRef .tc main_v3) : S1600000.Idx → BitVec 32) = edgeRow1 (m ((c : Thread nD τ).loc main_arg1)) := by
  show StableHlo.after hostOps0 (W0 m ρ c) (Proc.devRef .tc main_v3) = _
  after_results <;> rfl
theorem V1_v13 (c : Dev nD) : (V1 m ρ c main_v13 : S100000x128.Idx → EReal) = aggregate128 (m ((c : Thread nD τ).loc main_arg1)) (m ((c : Thread nD τ).loc main_arg0)) := by
  show StableHlo.after hostOps0 (W0 m ρ c) (Proc.devRef .tc main_v13) = _
  after_results <;> rfl
theorem V1_v14 (c : Dev nD) : (V1 m ρ c main_v14 : S128x128.Idx → EReal) = transpose S128x128 [1, 0] (m ((c : Thread nD τ).loc main_arg2)) transposes_S128x128_S128x128_1_0 := by
  show StableHlo.after hostOps0 (W0 m ρ c) (Proc.devRef .tc main_v14) = _
  after_results <;> rfl
theorem V1_v15 (c : Dev nD) : (V1 m ρ c main_v15 : S128x128.Idx → EReal) = transpose S128x128 [1, 0] (m ((c : Thread nD τ).loc main_arg4)) transposes_S128x128_S128x128_1_0 := by
  show StableHlo.after hostOps0 (W0 m ρ c) (Proc.devRef .tc main_v15) = _
  after_results <;> rfl
theorem V1_v16 (c : Dev nD) : (V1 m ρ c main_v16 : S1x128.Idx → EReal) = shapeCast S1x128 (m ((c : Thread nD τ).loc main_arg3)) shapeCasts_S128_S1x128 := by
  show StableHlo.after hostOps0 (W0 m ρ c) (Proc.devRef .tc main_v16) = _
  after_results <;> rfl

/-! ## The first region's output, and what crosses it untouched -/

theorem W2_v17 (c : Dev nD) : (W2 m ρ c (Proc.devRef .tc main_v17) : S100000x128.Idx → EReal) = hidden m c := by
  refine (W2_arr m ρ c 5).trans ((final0 (V1 m ρ) c).trans ?_)
  rw [V1_v13, V1_v14, V1_v15, V1_v16]
  show convArr _ (W1 m ρ c (Proc.devRef .tc main_arg0)) _ _ _ = _
  rw [W1_arg0]
  rfl
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_v1 (c : Dev nD) : (W2 m ρ c (Proc.devRef .tc main_v1) : S1600000.Idx → BitVec 32) = edgeRow0 (m ((c : Thread nD τ).loc main_arg1)) :=
  (W2_of_ne m ρ c main_v1 (by decide)).trans (W1_v1 m ρ c)
theorem W2_v3 (c : Dev nD) : (W2 m ρ c (Proc.devRef .tc main_v3) : S1600000.Idx → BitVec 32) = edgeRow1 (m ((c : Thread nD τ).loc main_arg1)) :=
  (W2_of_ne m ρ c main_v3 (by decide)).trans (W1_v3 m ρ c)

/-! ## Between the first and the second region -/

theorem V3_v17 (c : Dev nD) : (V3 m ρ c main_v17 : S100000x128.Idx → EReal) = hidden m c := by
  refine Eq.trans ?_ (W2_v17 m ρ c)
  show StableHlo.after hostOps1 (W2 m ρ c) (Proc.devRef .tc main_v17) = _
  after_results
theorem V3_v18 (c : Dev nD) : (V3 m ρ c main_v18 : S128x64.Idx → EReal) = transpose S128x64 [1, 0] (m ((c : Thread nD τ).loc main_arg5)) transposes_S64x128_S128x64_1_0 := by
  rw [← W2_arg5 m ρ c]
  show StableHlo.after hostOps1 (W2 m ρ c) (Proc.devRef .tc main_v18) = _
  after_results <;> rfl
theorem V3_v19 (c : Dev nD) : (V3 m ρ c main_v19 : S128x64.Idx → EReal) = transpose S128x64 [1, 0] (m ((c : Thread nD τ).loc main_arg7)) transposes_S64x128_S128x64_1_0 := by
  rw [← W2_arg7 m ρ c]
  show StableHlo.after hostOps1 (W2 m ρ c) (Proc.devRef .tc main_v19) = _
  after_results <;> rfl
theorem W3_v20 (c : Dev nD) : (W3 m ρ c (Proc.devRef .tc main_v20) : S1x64.Idx → EReal) = shapeCast S1x64 (m ((c : Thread nD τ).loc main_arg6)) shapeCasts_S64_S1x64 := by
  rw [← W2_arg6 m ρ c]
  show StableHlo.after hostOps1 (W2 m ρ c) (Proc.devRef .tc main_v20) = _
  after_results <;> rfl
theorem W3_v1 (c : Dev nD) : (W3 m ρ c (Proc.devRef .tc main_v1) : S1600000.Idx → BitVec 32) = edgeRow0 (m ((c : Thread nD τ).loc main_arg1)) := by
  refine Eq.trans ?_ (W2_v1 m ρ c)
  show StableHlo.after hostOps1 (W2 m ρ c) (Proc.devRef .tc main_v1) = _
  after_results
theorem W3_v3 (c : Dev nD) : (W3 m ρ c (Proc.devRef .tc main_v3) : S1600000.Idx → BitVec 32) = edgeRow1 (m ((c : Thread nD τ).loc main_arg1)) := by
  refine Eq.trans ?_ (W2_v3 m ρ c)
  show StableHlo.after hostOps1 (W2 m ρ c) (Proc.devRef .tc main_v3) = _
  after_results

/-! ## The second region's outputs, and what crosses it untouched -/

theorem W4_v21_0 (c : Dev nD) : (W4 m ρ c (Proc.devRef .tc main_v21_0) : S100000x64.Idx → EReal) = rel m c := by
  refine (W4_arr m ρ c 3).trans ((final1_3 (V3 m ρ) c).trans ?_)
  rw [V3_v17, V3_v18]
  rfl
theorem W4_v21_1 (c : Dev nD) : (W4 m ρ c (Proc.devRef .tc main_v21_1) : S100000x64.Idx → EReal) = root m c := by
  refine (W4_arr m ρ c 4).trans ((final1_4 (V3 m ρ) c).trans ?_)
  rw [V3_v17, V3_v19]
  rfl
theorem W4_v20 (c : Dev nD) : (W4 m ρ c (Proc.devRef .tc main_v20) : S1x64.Idx → EReal) = shapeCast S1x64 (m ((c : Thread nD τ).loc main_arg6)) shapeCasts_S64_S1x64 :=
  (W4_of_ne m ρ c main_v20 (by decide)).trans (W3_v20 m ρ c)
theorem W4_v1 (c : Dev nD) : (W4 m ρ c (Proc.devRef .tc main_v1) : S1600000.Idx → BitVec 32) = edgeRow0 (m ((c : Thread nD τ).loc main_arg1)) :=
  (W4_of_ne m ρ c main_v1 (by decide)).trans (W3_v1 m ρ c)
theorem W4_v3 (c : Dev nD) : (W4 m ρ c (Proc.devRef .tc main_v3) : S1600000.Idx → BitVec 32) = edgeRow1 (m ((c : Thread nD τ).loc main_arg1)) :=
  (W4_of_ne m ρ c main_v3 (by decide)).trans (W3_v3 m ρ c)

/-! ## Between the second and the third region -/

theorem V5_v31 (c : Dev nD) : (V5 m ρ c main_v31 : S100000x64.Idx → EReal) = aggregate64 (m ((c : Thread nD τ).loc main_arg1)) (rel m c) := by
  rw [← W4_v21_0 m ρ c]
  unfold aggregate64 srcCol dstCol
  rw [← W4_v1 m ρ c, ← W4_v3 m ρ c]
  show StableHlo.after hostOps2 (W4 m ρ c) (Proc.devRef .tc main_v31) = _
  after_results <;> rfl
theorem V5_v21_1 (c : Dev nD) : (V5 m ρ c main_v21_1 : S100000x64.Idx → EReal) = root m c := by
  refine Eq.trans ?_ (W4_v21_1 m ρ c)
  show StableHlo.after hostOps2 (W4 m ρ c) (Proc.devRef .tc main_v21_1) = _
  after_results
theorem V5_v20 (c : Dev nD) : (V5 m ρ c main_v20 : S1x64.Idx → EReal) = shapeCast S1x64 (m ((c : Thread nD τ).loc main_arg6)) shapeCasts_S64_S1x64 := by
  refine Eq.trans ?_ (W4_v20 m ρ c)
  show StableHlo.after hostOps2 (W4 m ρ c) (Proc.devRef .tc main_v20) = _
  after_results

/-! ## The result -/

/-- The last boundary's contents at the result buffer are the program's result term of the arguments. -/
theorem W6_result (c : Dev nD) : (W6 m ρ c (Proc.devRef .tc main_v32) : S100000x64.Idx → EReal) = result m c := by
  refine (W6_arr m ρ c 3).trans ((final2 (V5 m ρ) c).trans ?_)
  rw [V5_v31, V5_v21_1, V5_v20]
  rfl

end Cert.KernelIdeal.Fold

end
-- ==== Proof.RefValue.lean ====
/- The reference program's result read at an index.

   The reference is a two-layer graph convolution. With `agg1 = scatterAdd 0 dst (gather x src)` the hidden layer is
   `h = max ((agg1 · w_rel1ᵀ + b_rel1) + x · w_root1ᵀ) 0`, and with `agg2 = scatterAdd 0 dst (gather h src)` the result is
   `out = (agg2 · w_rel2ᵀ + b_rel2) + h · w_root2ᵀ`. The weights are stored as outputs × inputs and transposed before
   each product, so an element of a product reads the weight argument at the swapped index. The gathers and the
   scatter-adds stay folded: only the operations whose element depends on one element of each operand are read. -/
import proofs.«178896_j22565758173359_2_alg».proof.Proof.Gen.ReferenceIdeal.Read
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

variable (x0 : (⟨S100000x128, .f32⟩ : BufTy).Contents (Elt Ideal))
  (x1 : (⟨S2x1600000, .i32⟩ : BufTy).Contents (Elt Ideal))
  (x2 x4 : (⟨S128x128, .f32⟩ : BufTy).Contents (Elt Ideal))
  (x3 : (⟨S128, .f32⟩ : BufTy).Contents (Elt Ideal))
  (x5 x7 : (⟨S64x128, .f32⟩ : BufTy).Contents (Elt Ideal))
  (x6 : (⟨S64, .f32⟩ : BufTy).Contents (Elt Ideal))

/-! ## The index functions of the second layer at coordinates -/

/-- The left operand of the aggregated product of layer two is read at row `n`, column `k`. -/
theorem lidx38 (n : Fin 100000) (u : Fin 64) (k : Fin 128) : lidx_main_v38 (ix2 n u) k = ix2 n k :=
  funext fun a => Fin.ext (by match a with | ⟨0, _⟩ => rfl | ⟨1, _⟩ => rfl)

/-- The transposed weight of the aggregated product of layer two is read at row `k`, column `u`. -/
theorem ridx38 (n : Fin 100000) (u : Fin 64) (k : Fin 128) : ridx_main_v38 (ix2 n u) k = ix2 k u :=
  funext fun a => Fin.ext (by match a with | ⟨0, _⟩ => rfl | ⟨1, _⟩ => rfl)

/-- The transpose reads the stored weight at the swapped index. -/
theorem idx37 (k : Fin 128) (u : Fin 64) : idx_main_v37 (ix2 k u) = ix2 u k :=
  funext fun a => Fin.ext (by match a with | ⟨0, _⟩ => rfl | ⟨1, _⟩ => rfl)

/-- The bias of layer two, broadcast over the rows, is read at the column. -/
theorem idx39_40 (n : Fin 100000) (u : Fin 64) : idx_main_v39 (idx_main_v40 (ix2 n u)) = ix1 u :=
  funext fun a => Fin.ext (by match a with | ⟨0, _⟩ => rfl)

theorem lidx43 (n : Fin 100000) (u : Fin 64) (k : Fin 128) : lidx_main_v43 (ix2 n u) k = ix2 n k :=
  funext fun a => Fin.ext (by match a with | ⟨0, _⟩ => rfl | ⟨1, _⟩ => rfl)

theorem ridx43 (n : Fin 100000) (u : Fin 64) (k : Fin 128) : ridx_main_v43 (ix2 n u) k = ix2 k u :=
  funext fun a => Fin.ext (by match a with | ⟨0, _⟩ => rfl | ⟨1, _⟩ => rfl)

theorem idx42 (k : Fin 128) (u : Fin 64) : idx_main_v42 (ix2 k u) = ix2 u k :=
  funext fun a => Fin.ext (by match a with | ⟨0, _⟩ => rfl | ⟨1, _⟩ => rfl)

/-- The result at node `n`, output feature `u`: the aggregated hidden row times `w_rel2`'s row `u`, plus the bias,
    plus the node's own hidden row times `w_root2`'s row `u`. -/
theorem out_apply (n : Fin 100000) (u : Fin 64) :
    val_main_v44 (F := Ideal) x0 x1 x2 x3 x4 x5 x6 x7 (ix2 n u)
      = ((∑ k : Fin 128, val_main_v36 (F := Ideal) x0 x1 x2 x3 x4 (ix2 n k) * x5 (ix2 u k)) + x6 (ix1 u))
        + ∑ k : Fin 128, val_main_v22 (F := Ideal) x0 x1 x2 x3 x4 (ix2 n k) * x7 (ix2 u k) := by
  rw [val_main_v44_apply, val_main_v41_apply, val_main_v38_apply, val_main_v40_apply, val_main_v39_apply,
    val_main_v43_apply]
  simp only [val_main_v37_apply, val_main_v42_apply, Ideal.addf_def, lidx38, ridx38, idx37, idx39_40, lidx43, ridx43,
    idx42]

/-! ## The index functions of the first layer at coordinates -/

theorem lidx15 (p : Fin 100000) (g f : Fin 128) : lidx_main_v15 (ix2 p g) f = ix2 p f :=
  funext fun a => Fin.ext (by match a with | ⟨0, _⟩ => rfl | ⟨1, _⟩ => rfl)

theorem ridx15 (p : Fin 100000) (g f : Fin 128) : ridx_main_v15 (ix2 p g) f = ix2 f g :=
  funext fun a => Fin.ext (by match a with | ⟨0, _⟩ => rfl | ⟨1, _⟩ => rfl)

theorem idx14 (f g : Fin 128) : idx_main_v14 (ix2 f g) = ix2 g f :=
  funext fun a => Fin.ext (by match a with | ⟨0, _⟩ => rfl | ⟨1, _⟩ => rfl)

/-- The bias of layer one, broadcast over the rows, is read at the column. -/
theorem idx16_17 (p : Fin 100000) (g : Fin 128) : idx_main_v16 (idx_main_v17 (ix2 p g)) = ix1 g :=
  funext fun a => Fin.ext (by match a with | ⟨0, _⟩ => rfl)

theorem lidx20 (p : Fin 100000) (g f : Fin 128) : lidx_main_v20 (ix2 p g) f = ix2 p f :=
  funext fun a => Fin.ext (by match a with | ⟨0, _⟩ => rfl | ⟨1, _⟩ => rfl)

theorem ridx20 (p : Fin 100000) (g f : Fin 128) : ridx_main_v20 (ix2 p g) f = ix2 f g :=
  funext fun a => Fin.ext (by match a with | ⟨0, _⟩ => rfl | ⟨1, _⟩ => rfl)

theorem idx19 (f g : Fin 128) : idx_main_v19 (ix2 f g) = ix2 g f :=
  funext fun a => Fin.ext (by match a with | ⟨0, _⟩ => rfl | ⟨1, _⟩ => rfl)

/-- The hidden layer at node `p`, feature `g`: the aggregated input row times `w_rel1`'s row `g`, plus the bias, plus
    the node's own input row times `w_root1`'s row `g`, clamped below at the constant zero word. -/
theorem hidden_apply (p : Fin 100000) (g : Fin 128) :
    val_main_v22 (F := Ideal) x0 x1 x2 x3 x4 (ix2 p g)
      = max (((∑ f : Fin 128, val_main_v13 (F := Ideal) x0 x1 (ix2 p f) * x2 (ix2 g f)) + x3 (ix1 g))
          + ∑ f : Fin 128, x0 (ix2 p f) * x4 (ix2 g f)) (Ideal.ofBits .f32 0x00000000#32) := by
  rw [val_main_v22_apply, val_main_v21_apply, val_main_v18_apply, val_main_v15_apply, val_main_v17_apply,
    val_main_v16_apply, val_main_v20_apply, val_main_call0_v0_apply, val_main_call0_cst_apply]
  simp only [val_main_v14_apply, val_main_v19_apply, Ideal.addf_def, Ideal.maximumf_def, Ideal.ofBits_def, lidx15,
    ridx15, idx14, idx16_17, lidx20, ridx20, idx19]

/-! ## The folded operations -/

/-- The second aggregation: the hidden rows gathered at the source column, added into zeros at the destination column. -/
theorem agg2_def :
    val_main_v36 (F := Ideal) x0 x1 x2 x3 x4
      = Host.scatterAdd (F := Ideal) (φ := .f32) scatter_S100000x128_S1600000x1_S1600000x128_1_0_0_1 (val_main_v34 (F := Ideal))
          (val_main_v35 (F := Ideal) x1)
          (Host.gather (α := Ideal .f32) gather_S100000x128_S1600000x1_S1600000x128_1_0_n_n_0_1_1128
            (val_main_v22 (F := Ideal) x0 x1 x2 x3 x4) (val_main_v32 (F := Ideal) x1)) := by
  unfold val_main_v36 val_main_v33
  rfl

/-- The first aggregation: the input rows gathered at the source column, added into zeros at the destination column. -/
theorem agg1_def :
    val_main_v13 (F := Ideal) x0 x1
      = Host.scatterAdd (F := Ideal) (φ := .f32) scatter_S100000x128_S1600000x1_S1600000x128_1_0_0_1 (val_main_v11 (F := Ideal))
          (val_main_v12 (F := Ideal) x1)
          (Host.gather (α := Ideal .f32) gather_S100000x128_S1600000x1_S1600000x128_1_0_n_n_0_1_1128 x0 (val_main_v9 (F := Ideal) x1)) := by
  unfold val_main_v13 val_main_v10
  rfl

/-- The accumulator the second aggregation starts from is the constant zero word everywhere. -/
theorem zeros2_apply (i : S100000x128.Idx) : val_main_v34 (F := Ideal) i = Ideal.ofBits .f32 0x00000000#32 := by
  rw [val_main_v34_apply, val_main_cst_3_apply, Ideal.ofBits_def]

/-- The accumulator the first aggregation starts from is the constant zero word everywhere. -/
theorem zeros1_apply (i : S100000x128.Idx) : val_main_v11 (F := Ideal) i = Ideal.ofBits .f32 0x00000000#32 := by
  rw [val_main_v11_apply, val_main_cst_apply, Ideal.ofBits_def]

/-- The source column (wrapped into range) is computed twice by the same operations. -/
theorem src_idx_eq : val_main_v32 (F := Ideal) x1 = val_main_v9 (F := Ideal) x1 := by
  unfold val_main_v32 val_main_v31 val_main_v28 val_main_v30 val_main_v24 val_main_v23 val_main_v27 val_main_v29
    val_main_c_1 val_main_c_2
  unfold val_main_v9 val_main_v8 val_main_v5 val_main_v7 val_main_v1 val_main_v0 val_main_v4 val_main_v6
    val_main_c val_main_c_0
  rfl

/-- The destination column is computed twice by the same operations. -/
theorem dst_idx_eq : val_main_v35 (F := Ideal) x1 = val_main_v12 (F := Ideal) x1 := by
  unfold val_main_v35 val_main_v26 val_main_v25
  unfold val_main_v12 val_main_v3 val_main_v2
  rfl

/-! ## The run's result is the last stage -/

section Result
open Cert.ReferenceIdeal.Gen Idealize.ShloMosaic.TcCoe Idealize.SL.Sem

/-- The term the run names as the program's result is the last operation's value at the eight arguments' buffers. -/
theorem result_eq (m : (ℓ : Loc nD τ sig) → Buf (Elt Ideal) ℓ) (c : Dev nD) :
    Cert.ReferenceIdeal.Value.res_main_v44 (F := Ideal) m c
      = val_main_v44 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  val_main_v44_eq m c

end Result

end Cert.ReferenceIdeal.RefValue

end
-- ==== Proof.Finite.lean ====
/-
  From the certificate's precondition to "every float argument array holds real numbers".

  The precondition says that the conjunction, over the seven float argument arrays, of
  `all (|x| < +∞)` is the true bit. At the ideal instance a float is an extended real, `|x|` is
  `max x (-x)`, the pattern 0x7F800000 denotes `⊤`, and the comparison is the order's; so each
  entry of each float argument is neither `⊤` nor `⊥`: it is a real number.
-/
import proofs.«178896_j22565758173359_2_alg».proof.Defs
import proofs.«178896_j22565758173359_2_alg».proof.Proof.Gen.Pre_finite_inputs
import Idealize.ShloMosaic.Lib.ValueIdx
import Idealize.ShloMosaic.Lib.ReduceAll
import Idealize.ShloMosaic.PureOps.Ideal

noncomputable section

namespace Cert.Finite

open Idealize.ShloMosaic Idealize.SL.Sem Cert.KernelIdeal

/-- The f32 pattern 0x7F800000 (sign 0, exponent all ones, fraction 0) denotes `+∞`. -/
theorem ofBits_inf : Ideal.ofBits .f32 0x7F800000#32 = (⊤ : EReal) := by
  simp [Ideal.ofBits, Ideal.ieee]

/-- A bit made from a Boolean is the true bit exactly when the Boolean is true. -/
theorem ofBool_eq_one (b : Bool) : BitVec.ofBool b = 1#1 ↔ b = true := by
  cases b
  · exact ⟨fun h => absurd h (by decide), fun h => absurd h (by decide)⟩
  · exact ⟨fun _ => rfl, fun _ => rfl⟩

/-- An extended real whose absolute value `max x (-x)` lies strictly below `⊤` is a real number:
    at `⊤` the maximum is `⊤`, and at `⊥` it is `-⊥ = ⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The scalar shape has one index. -/
theorem subsingleton_scalar_idx : Subsingleton Cert.Pre_finite_inputs.S_.Idx :=
  ⟨fun a b => funext fun d => d.elim0⟩

/-- `all (|x| < +∞) = true` read back, over any shape `s`: if the reduction by `and`, over all axes,
    of the elementwise comparison of `|x|` with the broadcast of `+∞` is the true bit, then every
    entry of `x` is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf x)
            (broadcastInDim s ![] hb (constant (F := Ideal) Cert.Pre_finite_inputs.S_ .f32 0x7F800000#32)))
          init hr hu j = 1#1)
    (i : s.Idx) : ∃ r : ℝ, x i = (r : EReal) := by
  haveI : Subsingleton Cert.Pre_finite_inputs.S_.Idx := subsingleton_scalar_idx
  have h1 := Host.reduce_andi_all _ init hr hu j e i
  -- the comparison at the index `i`: `max (x i) (-(x i)) < ⊤`
  have h2 : Ideal.cmp .olt (max (x i) (-(x i))) (Ideal.ofBits .f32 0x7F800000#32) = 1#1 := h1
  rw [ofBits_inf] at h2
  have h3 : max (x i) (-(x i)) < ⊤ := by
    have hd : decide (max (x i) (-(x i)) < (⊤ : EReal)) = true := (ofBool_eq_one _).1 h2
    exact of_decide_eq_true hd
  exact real_of_abs_lt_top (x i) h3

/-- On every device, each of the seven float argument arrays of the idealized kernel holds real numbers
    only, under the certificate's precondition. (The integer argument is unconstrained.) -/
theorem real_args (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
      (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal)) := by
  -- the precondition on device `c`, read at the scalar result's one index
  have h0 := congrFun (h c) ValueIdx.ix0
  dsimp only [Cert.Pre_finite_inputs.fn, Cert.Pre_finite_inputs.fn_part1] at h0
  -- the conjunction of seven bits is the true bit: each of them is
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  -- each bit is `all (|x| < +∞)` of one float argument
  exact ⟨all_real _ _ _ _ _ _ e0, all_real _ _ _ _ _ _ e2, all_real _ _ _ _ _ _ e3, all_real _ _ _ _ _ _ e4,
    all_real _ _ _ _ _ _ e5, all_real _ _ _ _ _ _ e6, all_real _ _ _ _ _ _ e7⟩

end Cert.Finite

end
-- ==== Proof.LibEdgeRows.lean ====
/-
  ROWS OF A TABLE BY A COLUMN OF ROW NUMBERS — a message-passing step on a graph, read at an index.

  A table `T : [N, C]` holds one row of `C` features per node; a column `idx : [E, 1]` holds one node number per edge.
  GATHERING whole rows (`stablehlo.gather` with offset_dims `[1]`, collapsed_slice_dims `[0]`, start_index_map `[0]`,
  index_vector_dim `1`, slice_sizes `[1, C]`) gives `[E, C]`: element `(e, k)` is `T` at row `srcRow idx e` — the
  edge's number read signed and clamped into `[0, N − 1]` — and column `k` (`rowGather_apply`).
  SCATTER-ADDING `E` rows `upd : [E, C]` into `z : [N, C]` by such a column (`stablehlo.scatter` with an `add` body,
  update_window_dims `[1]`, inserted_window_dims `[0]`, scatter_dims_to_operand_dims `[0]`, index_vector_dim `1`)
  gives at `(n, k)` the element `z (n, k)` plus the sum of `upd (e, k)` over the edges `e` whose number, read signed and
  NOT clamped, is `n` (`rowScatterAdd_apply`); an edge whose number is outside `[0, N − 1]` adds nothing anywhere.
  The row function and the edge predicate do not mention the width `C`: the same edges feed the same rows at every width.
-/
import Idealize.ShloMosaic.Lib.ValueIdx
import Idealize.ShloMosaic.PureOps.Ideal

noncomputable section

open scoped BigOperators

namespace EdgeRows

open Idealize.ShloMosaic Idealize.ShloMosaic.ValueIdx

/-! ## Gathering whole rows -/

/-- The dimension numbers of a whole-row gather: operand `[N, C]`, start indices `[E, 1]`, result `[E, C]`; the row
    axis is collapsed (slice size 1) and named by the start index map, the column axis is the one offset axis (slice
    size `C`). Their conditions `wf` are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an edge reads: its start index read signed and clamped into `[0, N − 1]` (slice size 1 on the row axis). -/
def srcRow (N : Nat) (hN : 0 < N) {E w : Nat} (idx : IVec ⟨2, ![E, 1]⟩ w) (e : Fin E) : Fin N :=
  ⟨min (idx (ix2 e 0)).toInt.toNat (N - 1), by omega⟩

/-- THE ROW GATHER READ AT `(e, k)`: the table at the row the edge names (`srcRow`: signed, clamped into
    `[0, N − 1]`) and the same column `k`. The row does not depend on the width `C`. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k) = x (ix2 (srcRow N hN idx e) k) := by
  unfold Host.gather
  congr 1
  funext a
  refine Fin.ext ?_
  show (rowGatherDims N E C wf).start (ix2 e k) idx a + (rowGatherDims N E C wf).batchCoord (ix2 e k) a
    + (rowGatherDims N E C wf).offCoord (ix2 e k) a = _
  rw [GatherDims.batchCoord_eq_zero _ _ _ List.not_mem_nil]
  simp only [Nat.add_zero]
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGatherDims N E C wf).startIndexMap from List.mem_singleton.mpr rfl)]
    have hsi : (rowGatherDims N E C wf).siIdx (ix2 e k) ⟨List.idxOf (⟨0, h0⟩ : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, h1⟩ =>
    have hne : (⟨1, h1⟩ : Fin 2) ∉ ([0] : List (Fin 2)) :=
      fun h => Nat.one_ne_zero (congrArg Fin.val (List.mem_singleton.mp h))
    have hmem : (⟨1, h1⟩ : Fin 2) ∈ (rowGatherDims N E C wf).sKept :=
      (GatherDims.mem_sKept _ _).mpr ⟨hne, List.not_mem_nil⟩
    unfold GatherDims.start
    rw [dif_neg (show (⟨1, h1⟩ : Fin 2) ∉ (rowGatherDims N E C wf).startIndexMap from hne)]
    unfold GatherDims.offCoord
    rw [dif_pos hmem]
    simp only [Nat.zero_add]
    rfl

/-! ## Scatter-adding whole rows -/

/-- The dimension numbers of a whole-row scatter: operand `[N, C]`, scatter indices `[E, 1]`, updates `[E, C]`; the
    row axis is inserted and named by the scatter index, the column axis is the one window axis. Their conditions `wf`
    are decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An axis is kept exactly when it is not among the removed ones. -/
private theorem mem_kept {s : Shape} (axes : List (Fin s.rank)) (a : Fin s.rank) : a ∈ s.kept axes ↔ a ∉ axes := by
  simp [Shape.kept, List.mem_filter, List.mem_finRange]

/-- On the row axis the update `(e, k')` lands at its edge's number, read signed: the window coordinate there is `0`,
    the axis being inserted. -/
theorem rowScatter_pos0 {N E C w : Nat} (wf : ScatterDims.WF ⟨2, ![N, C]⟩ ⟨2, ![E, 1]⟩ ⟨2, ![E, C]⟩ [1] [0] [0] 1)
    (idx : IVec ⟨2, ![E, 1]⟩ w) (e : Fin E) (k' : Fin C) :
    (rowScatterDims N E C wf).start (ix2 e k') idx 0 + ((rowScatterDims N E C wf).window (ix2 e k') 0 : Int)
      = (idx (ix2 e 0)).toInt := by
  have hw : (rowScatterDims N E C wf).window (ix2 e k') 0 = 0 := by
    unfold ScatterDims.window
    rw [dif_neg (fun h => ((mem_kept _ _).mp h) (List.mem_singleton.mpr rfl))]
  rw [hw]
  unfold ScatterDims.start
  rw [dif_pos (show (0 : Fin 2) ∈ (rowScatterDims N E C wf).scatterDimsToOperandDims from List.mem_singleton.mpr rfl)]
  have hsi : (rowScatterDims N E C wf).siIdx (ix2 e k') ⟨List.idxOf (0 : Fin 2) (rowScatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
  simp only [Nat.cast_zero, Int.add_zero]

/-- On the column axis the update `(e, k')` lands at its own column `k'`: no scatter index names that axis, so the
    start is `0`, and the window coordinate is `k'`. -/
theorem rowScatter_pos1 {N E C w : Nat} (wf : ScatterDims.WF ⟨2, ![N, C]⟩ ⟨2, ![E, 1]⟩ ⟨2, ![E, C]⟩ [1] [0] [0] 1)
    (idx : IVec ⟨2, ![E, 1]⟩ w) (e : Fin E) (k' : Fin C) :
    (rowScatterDims N E C wf).start (ix2 e k') idx 1 + ((rowScatterDims N E C wf).window (ix2 e k') 1 : Int)
      = (k'.val : Int) := by
  have hne : (1 : Fin 2) ∉ ([0] : List (Fin 2)) :=
    fun h => Nat.one_ne_zero (congrArg Fin.val (List.mem_singleton.mp h))
  have hw : (rowScatterDims N E C wf).window (ix2 e k') 1 = k'.val := by
    unfold ScatterDims.window
    rw [dif_pos ((mem_kept _ _).mpr hne)]
    rfl
  rw [hw]
  unfold ScatterDims.start
  rw [dif_neg (show (1 : Fin 2) ∉ (rowScatterDims N E C wf).scatterDimsToOperandDims from hne)]
  simp only [Int.zero_add]

/-- WHERE AN UPDATE LANDS: the update `(e, k')` lands on the element `(n, k)` exactly when its edge's number, read
    signed and not clamped, is `n`, and its column is `k`. An edge whose number is negative or at least `N` lands
    nowhere. -/
theorem rowScatter_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (k' : Fin C) (n : Fin N) (k : Fin C) :
    (rowScatterDims N E C wf).resultIdx? (ix2 e k') idx = some (ix2 n k)
      ↔ (idx (ix2 e 0)).toInt = (n.val : Int) ∧ k' = k := by
  have h0 := rowScatter_pos0 wf idx e k'
  have h1 := rowScatter_pos1 wf idx e k'
  unfold ScatterDims.resultIdx?
  split
  · rename_i h
    rw [Option.some.injEq]
    constructor
    · intro hf
      have e0 : ((rowScatterDims N E C wf).start (ix2 e k') idx 0
          + ((rowScatterDims N E C wf).window (ix2 e k') 0 : Int)).toNat = n.val := congrArg (fun f => (f 0).val) hf
      have e1 : ((rowScatterDims N E C wf).start (ix2 e k') idx 1
          + ((rowScatterDims N E C wf).window (ix2 e k') 1 : Int)).toNat = k.val := congrArg (fun f => (f 1).val) hf
      have p0 := (h 0).1
      rw [h0] at e0 p0
      rw [h1] at e1
      exact ⟨by omega, Fin.ext (by omega)⟩
    · rintro ⟨hn, rfl⟩
      funext a
      refine Fin.ext ?_
      match a with
      | ⟨0, _⟩ =>
        show ((rowScatterDims N E C wf).start (ix2 e k') idx 0
          + ((rowScatterDims N E C wf).window (ix2 e k') 0 : Int)).toNat = n.val
        rw [h0, hn]; exact Int.toNat_natCast _
      | ⟨1, _⟩ =>
        show ((rowScatterDims N E C wf).start (ix2 e k') idx 1
          + ((rowScatterDims N E C wf).window (ix2 e k') 1 : Int)).toNat = k'.val
        rw [h1]; exact Int.toNat_natCast _
  · rename_i h
    constructor
    · intro hf; cases hf
    · rintro ⟨hn, rfl⟩
      exfalso; apply h; intro a
      match a with
      | ⟨0, _⟩ =>
        show 0 ≤ (rowScatterDims N E C wf).start (ix2 e k') idx 0 + ((rowScatterDims N E C wf).window (ix2 e k') 0 : Int)
          ∧ (rowScatterDims N E C wf).start (ix2 e k') idx 0 + ((rowScatterDims N E C wf).window (ix2 e k') 0 : Int) < (N : Int)
        rw [h0, hn]; have := n.isLt; omega
      | ⟨1, _⟩ =>
        show 0 ≤ (rowScatterDims N E C wf).start (ix2 e k') idx 1 + ((rowScatterDims N E C wf).window (ix2 e k') 1 : Int)
          ∧ (rowScatterDims N E C wf).start (ix2 e k') idx 1 + ((rowScatterDims N E C wf).window (ix2 e k') 1 : Int) < (C : Int)
        rw [h1]; have := k'.isLt; omega

/-- THE ROW SCATTER-ADD READ AT `(n, k)`: the operand's element plus the sum, over the edges whose number (read signed,
    not clamped) is `n`, of the update rows' column `k`. The set of edges does not depend on the width `C`. -/
theorem rowScatterAdd_apply {N E C w : Nat} {φ : FTy}
    (wf : ScatterDims.WF ⟨2, ![N, C]⟩ ⟨2, ![E, 1]⟩ ⟨2, ![E, C]⟩ [1] [0] [0] 1)
    (z : FVec Ideal ⟨2, ![N, C]⟩ φ) (idx : IVec ⟨2, ![E, 1]⟩ w) (upd : FVec Ideal ⟨2, ![E, C]⟩ φ)
    (n : Fin N) (k : Fin C) :
    Host.scatterAdd (F := Ideal) (rowScatterDims N E C wf) z idx upd (ix2 n k)
      = z (ix2 n k) + ∑ e ∈ Finset.univ.filter (fun e : Fin E => (idx (ix2 e 0)).toInt = (n.val : Int)), upd (ix2 e k) := by
  unfold Host.scatterAdd
  rw [Ideal.hostScatterAdd_def]
  unfold Ideal.hostScatterAdd
  congr 1
  symm
  refine Finset.sum_nbij' (fun e : Fin E => (ix2 e k : (⟨2, ![E, C]⟩ : Shape).Idx))
    (fun y : (⟨2, ![E, C]⟩ : Shape).Idx => (⟨(y 0).val, idx2_lt0 y⟩ : Fin E)) ?_ ?_ ?_ ?_ ?_
  · intro e he
    rw [Finset.mem_filter] at he ⊢
    exact ⟨Finset.mem_univ _, (rowScatter_resultIdx_iff wf idx e k n k).mpr ⟨he.2, rfl⟩⟩
  · intro y hy
    obtain ⟨a, b, rfl⟩ : ∃ a b, y = ix2 a b := ⟨_, _, eq_ix2 y⟩
    rw [Finset.mem_filter] at hy ⊢
    exact ⟨Finset.mem_univ _, ((rowScatter_resultIdx_iff wf idx a b n k).mp hy.2).1⟩
  · intro e _
    rfl
  · intro y hy
    obtain ⟨a, b, rfl⟩ : ∃ a b, y = ix2 a b := ⟨_, _, eq_ix2 y⟩
    rw [Finset.mem_filter] at hy
    obtain ⟨_, rfl⟩ := (rowScatter_resultIdx_iff wf idx a b n k).mp hy.2
    rfl
  · intro e _
    rfl

end EdgeRows

end
-- ==== Proof.LibRealSums.lean ====
/- Finite sums of extended reals that are real numbers.

   On the extended reals a product does not distribute over a sum in general (`⊤ + ⊥` is `⊥`, and a product with an
   infinite factor changes sign with the other). It does when every term is a real number: then every expression is
   the image of the same expression over `ℝ`, where the usual laws hold. This file has the predicate "is a real
   number", its closure under the operations used, and the law that exchanges a weighted sum with a sum over a finite
   set: multiplying each summand's row by the weights and then adding the rows equals adding the rows first and
   multiplying once. -/
import Idealize.ShloMosaic.PureOps.Ideal.Laws

noncomputable section

open scoped BigOperators

namespace Cert.RealSums

open Idealize.ShloMosaic

/-- An extended real that is (the image of) a real number: neither `⊤` nor `⊥`. -/
def IsReal (v : EReal) : Prop := ∃ r : ℝ, v = (r : EReal)

/-- The image of a real number is real. -/
theorem isReal_coe (r : ℝ) : IsReal (r : EReal) := ⟨r, rfl⟩

/-- Zero is real. -/
theorem isReal_zero : IsReal 0 := ⟨0, EReal.coe_zero.symm⟩

/-- A real extended real is the image of its real part. -/
theorem IsReal.coe_toReal {v : EReal} (h : IsReal v) : ((v.toReal : ℝ) : EReal) = v := by
  obtain ⟨r, rfl⟩ := h
  rw [EReal.toReal_coe]

/-- The sum of two reals is real. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two reals is real. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- The larger of two reals is one of them, hence real. -/
theorem IsReal.max {a b : EReal} (ha : IsReal a) (hb : IsReal b) : IsReal (max a b) := by
  rcases le_total a b with h | h
  · rw [max_eq_right h]; exact hb
  · rw [max_eq_left h]; exact ha

/-- The image of a finite sum of real numbers is the sum of the images. -/
theorem coe_sum {ι : Type*} (T : Finset ι) (g : ι → ℝ) : ((∑ i ∈ T, g i : ℝ) : EReal) = ∑ i ∈ T, (g i : EReal) := by
  classical
  induction T using Finset.induction_on with
  | empty => rw [Finset.sum_empty, Finset.sum_empty, EReal.coe_zero]
  | insert a s ha ih => rw [Finset.sum_insert ha, Finset.sum_insert ha, EReal.coe_add, ih]

/-- A finite sum of reals is real. -/
theorem isReal_sum {ι : Type*} (T : Finset ι) (f : ι → EReal) (h : ∀ i ∈ T, IsReal (f i)) : IsReal (∑ i ∈ T, f i) := by
  classical
  induction T using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The single-precision word of all zero bits denotes zero, a real number. -/
theorem isReal_ofBits_zero : IsReal (Ideal.ofBits .f32 0x00000000#32) := by
  rw [Ideal.ofBits_zero_f32]
  exact isReal_zero

/-- The exchange law. For reals `f e k` (`e` in a finite set `T`) and real weights `w k`: the sum over `e ∈ T` of the
    weighted sums `∑ k, f e k * w k` equals the weighted sum of the column totals `∑ e ∈ T, f e k`. Both sides start
    from an initial value `z` that is zero (on the left once, on the right inside every column total). Each side is the
    image of the same expression over `ℝ`, where the law is the exchange of the two summations and distributivity. -/
theorem sum_mul_exchange {ι κ : Type*} [Fintype κ] (T : Finset ι) (f : ι → κ → EReal) (w : κ → EReal) (z : EReal)
    (hz : z = 0) (hf : ∀ e ∈ T, ∀ k, IsReal (f e k)) (hw : ∀ k, IsReal (w k)) :
    z + ∑ e ∈ T, ∑ k, f e k * w k = ∑ k, (z + ∑ e ∈ T, f e k) * w k := by
  subst hz
  -- the left side's inner sums, as images of sums over ℝ
  have hL : ∀ e ∈ T, ∑ k, f e k * w k = ((∑ k, (f e k).toReal * (w k).toReal : ℝ) : EReal) := fun e he => by
    rw [coe_sum]
    refine Finset.sum_congr rfl fun k _ => ?_
    rw [EReal.coe_mul, (hf e he k).coe_toReal, (hw k).coe_toReal]
  -- the right side's summands, as images of products over ℝ
  have hR : ∀ k ∈ (Finset.univ : Finset κ),
      (0 + ∑ e ∈ T, f e k) * w k = (((∑ e ∈ T, (f e k).toReal) * (w k).toReal : ℝ) : EReal) := fun k _ => by
    rw [zero_add, EReal.coe_mul, coe_sum, (hw k).coe_toReal]
    congr 1
    exact Finset.sum_congr rfl fun e he => ((hf e he k).coe_toReal).symm
  rw [zero_add, Finset.sum_congr rfl hL, ← coe_sum, Finset.sum_congr rfl hR, ← coe_sum]
  -- over ℝ: exchange the two summations, then distributivity in each column
  congr 1
  rw [Finset.sum_comm]
  exact Finset.sum_congr rfl fun k _ => (Finset.sum_mul T (fun e => (f e k).toReal) ((w k).toReal)).symm

end Cert.RealSums

end
-- ==== Proof.Bridge.lean ====
/-
  The kernel's result and the reference's result are one function of the eight argument arrays, when the float
  arguments hold real numbers.

  Write A(t) for the neighbour aggregation of a table t: A(t)(n, k) = 0 + Σ over the edges e into n of t(row(e), k), where
  the edges into n and the row an edge reads are decided by the two columns of the edge list alone, whatever the width of
  the table. Both programs compute the same hidden array
      H(p, g) = max (Σ_f A(x)(p,f)·W₁(g,f) + Σ_f x(p,f)·R₁(g,f) + b₁(g), 0)
  (they add the three summands in different orders: addition of extended reals is commutative and associative). Then
      the kernel:     out(n,u) = (A(H·W₂ᵀ)(n,u) + Σ_k H(n,k)·R₂(u,k)) + b₂(u),
      the reference:  out(n,u) = (Σ_k A(H)(n,k)·W₂(u,k) + b₂(u)) + Σ_k H(n,k)·R₂(u,k).
  The kernel multiplies by W₂ before aggregating, the reference after. A(H·W₂ᵀ)(n,u) = 0 + Σ_e Σ_k H(row e,k)·W₂(u,k) and
  Σ_k A(H)(n,k)·W₂(u,k) = Σ_k (0 + Σ_e H(row e,k))·W₂(u,k): equal by exchanging the two finite sums and distributing the
  product over the inner sum, which on the extended reals needs every H(p,k) and every W₂(u,k) to be a real number. H is
  real because x, W₁, R₁, b₁ are: finite sums, products and maxima of reals are reals.
-/
import proofs.«178896_j22565758173359_2_alg».proof.Proof.KernelFold
import proofs.«178896_j22565758173359_2_alg».proof.Proof.RefValue
import proofs.«178896_j22565758173359_2_alg».proof.Proof.LibEdgeRows
import proofs.«178896_j22565758173359_2_alg».proof.Proof.LibRealSums
import Idealize.ShloMosaic.Lib.Pipeline.Value
import Idealize.ShloMosaic.Lib.ValueIdx
import Idealize.ShloMosaic.PureOps.Ideal.Laws

set_option maxRecDepth 16384

noncomputable section

open scoped BigOperators

namespace Cert.Bridge

open Idealize.ShloMosaic Idealize.ShloMosaic.ValueIdx
open Cert.KernelIdeal Cert.KernelIdeal.Gen Cert.KernelIdeal.Regions Cert.KernelIdeal.Fold Cert.RealSums

/-! ## Layout reads: a transposed weight matrix and a bias as one row -/

theorem transpose_sq (w : S128x128.Idx → EReal) (f g : Fin 128) :
    transpose S128x128 [1, 0] w transposes_S128x128_S128x128_1_0 (ix2 f g) = w (ix2 g f) :=
  transpose_apply [1, 0] w transposes_S128x128_S128x128_1_0 (ix2 f g) (ix2 g f) (fun b => by
    match b with
    | ⟨0, _⟩ => rfl
    | ⟨1, _⟩ => rfl)

theorem transpose_rect (w : S64x128.Idx → EReal) (k : Fin 128) (u : Fin 64) :
    transpose S128x64 [1, 0] w transposes_S64x128_S128x64_1_0 (ix2 k u) = w (ix2 u k) :=
  transpose_apply [1, 0] w transposes_S64x128_S128x64_1_0 (ix2 k u) (ix2 u k) (fun b => by
    match b with
    | ⟨0, _⟩ => rfl
    | ⟨1, _⟩ => rfl)

theorem biasRow128 (b : S128.Idx → EReal) (g : Fin 128) :
    shapeCast S1x128 b shapeCasts_S128_S1x128 (ix2 0 g) = b (ix1 g) :=
  shapeCast_apply b shapeCasts_S128_S1x128 (ix2 0 g) (ix1 g) (by
    rw [Shape.rowMajor_val_one, Shape.rowMajor_val_two]; show g.val = 0 * 128 + g.val; omega)

theorem biasRow64 (b : S64.Idx → EReal) (u : Fin 64) :
    shapeCast S1x64 b shapeCasts_S64_S1x64 (ix2 0 u) = b (ix1 u) :=
  shapeCast_apply b shapeCasts_S64_S1x64 (ix2 0 u) (ix1 u) (by
    rw [Shape.rowMajor_val_one, Shape.rowMajor_val_two]; show u.val = 0 * 64 + u.val; omega)

/-! ## The aggregation read at an index -/

variable (ei : IVec S2x1600000 32)

/-- The edges into node n: those whose target number, read signed, is n. -/
def inEdges (n : Fin 100000) : Finset (Fin 1600000) :=
  Finset.univ.filter (fun e : Fin 1600000 => (dstCol ei (ix2 e 0)).toInt = (n.val : Int))

/-- The row edge e reads: its source number read signed and clamped into the table. -/
def srcOf (e : Fin 1600000) : Fin 100000 := EdgeRows.srcRow 100000 (by decide) (srcCol ei) e

/-- The aggregation of a 128-wide table read at (n, k): the zero word plus, over the edges into n, the table's entry in the
    row the edge reads. Neither the set of edges nor the row depends on the width. -/
theorem aggregate128_apply (t : S100000x128.Idx → EReal) (n : Fin 100000) (k : Fin 128) :
    aggregate128 ei t (ix2 n k)
      = Ideal.ofBits .f32 0x00000000#32 + ∑ e ∈ inEdges ei n, t (ix2 (srcOf ei e) k) := by
  unfold aggregate128
  have hS : scatter_S100000x128_S1600000x1_S1600000x128_1_0_0_1 = EdgeRows.rowScatterDims 100000 1600000 128 (by decide) := rfl
  have hG : gather_S100000x128_S1600000x1_S1600000x128_1_0_n_n_0_1_1128 = EdgeRows.rowGatherDims 100000 1600000 128 (by decide) := rfl
  rw [hS, hG, EdgeRows.rowScatterAdd_apply]
  refine congrArg₂ (· + ·) rfl (Finset.sum_congr rfl fun e _ => ?_)
  exact EdgeRows.rowGather_apply (by decide) _ t (srcCol ei) e k

/-- The aggregation of a 64-wide table read at (n, k): the zero word plus, over the edges into n, the table's entry in the
    row the edge reads. Neither the set of edges nor the row depends on the width. -/
theorem aggregate64_apply (t : S100000x64.Idx → EReal) (n : Fin 100000) (k : Fin 64) :
    aggregate64 ei t (ix2 n k)
      = Ideal.ofBits .f32 0x00000000#32 + ∑ e ∈ inEdges ei n, t (ix2 (srcOf ei e) k) := by
  unfold aggregate64
  have hS : scatter_S100000x64_S1600000x1_S1600000x64_1_0_0_1 = EdgeRows.rowScatterDims 100000 1600000 64 (by decide) := rfl
  have hG : gather_S100000x64_S1600000x1_S1600000x64_1_0_n_n_0_1_164 = EdgeRows.rowGatherDims 100000 1600000 64 (by decide) := rfl
  rw [hS, hG, EdgeRows.rowScatterAdd_apply]
  refine congrArg₂ (· + ·) rfl (Finset.sum_congr rfl fun e _ => ?_)
  exact EdgeRows.rowGather_apply (by decide) _ t (srcCol ei) e k

/-! ## The kernel's pieces read at an index -/

variable (x : S100000x128.Idx → EReal) (w2 w4 : S128x128.Idx → EReal) (b3 : S128.Idx → EReal)
  (w5 w7 : S64x128.Idx → EReal) (b6 : S64.Idx → EReal)

theorem hiddenOf_apply (p : Fin 100000) (g : Fin 128) :
    hiddenOf ei x w2 w4 b3 (ix2 p g)
      = max (((∑ f : Fin 128, aggregate128 ei x (ix2 p f) * w2 (ix2 g f)) + ∑ f : Fin 128, x (ix2 p f) * w4 (ix2 g f))
          + b3 (ix1 g)) (Ideal.ofBits .f32 0x00000000#32) := by
  show convAt _ _ _ _ _ p g = _
  unfold convAt
  rw [biasRow128]
  refine congrArg (fun v => max (v + b3 (ix1 g)) (Ideal.ofBits .f32 0x00000000#32)) (congrArg₂ (· + ·) ?_ ?_)
  · exact Finset.sum_congr rfl fun f _ => congrArg (fun v => aggregate128 ei x (ix2 p f) * v) (transpose_sq w2 f g)
  · exact Finset.sum_congr rfl fun f _ => congrArg (fun v => x (ix2 p f) * v) (transpose_sq w4 f g)

theorem prodOf_apply (h : S100000x128.Idx → EReal) (w : S64x128.Idx → EReal) (n : Fin 100000) (u : Fin 64) :
    prodOf h w (ix2 n u) = ∑ k : Fin 128, h (ix2 n k) * w (ix2 u k) := by
  show prodAt _ _ n u = _
  unfold prodAt
  exact Finset.sum_congr rfl fun k _ => congrArg (fun v => h (ix2 n k) * v) (transpose_rect w k u)

theorem resultOf_apply (n : Fin 100000) (u : Fin 64) :
    resultOf x ei w2 b3 w4 w5 b6 w7 (ix2 n u)
      = (aggregate64 ei (prodOf (hiddenOf ei x w2 w4 b3) w5) (ix2 n u)
          + ∑ k : Fin 128, hiddenOf ei x w2 w4 b3 (ix2 n k) * w7 (ix2 u k)) + b6 (ix1 u) := by
  show finAt _ _ _ n u = _
  unfold finAt
  rw [prodOf_apply, biasRow64]

/-! ## Everything is a real number -/

theorem aggregate128_real (t : S100000x128.Idx → EReal) (ht : ∀ i, IsReal (t i)) (n : Fin 100000) (k : Fin 128) :
    IsReal (aggregate128 ei t (ix2 n k)) := by
  rw [aggregate128_apply]
  exact isReal_ofBits_zero.add (isReal_sum _ _ fun e _ => ht _)

theorem hiddenOf_real (hx : ∀ i, IsReal (x i)) (hw2 : ∀ i, IsReal (w2 i)) (hb3 : ∀ i, IsReal (b3 i)) (hw4 : ∀ i, IsReal (w4 i))
    (p : Fin 100000) (g : Fin 128) : IsReal (hiddenOf ei x w2 w4 b3 (ix2 p g)) := by
  rw [hiddenOf_apply]
  exact (((isReal_sum _ _ fun f _ => (aggregate128_real ei x hx p f).mul (hw2 _)).add
    (isReal_sum _ _ fun f _ => (hx _).mul (hw4 _))).add (hb3 _)).max isReal_ofBits_zero

/-! ## The reference's stages are the kernel's pieces -/

theorem ref_agg1 : Cert.ReferenceIdeal.Read.val_main_v13 (F := Ideal) x ei = aggregate128 ei x := by
  rw [Cert.ReferenceIdeal.RefValue.agg1_def]
  rfl

theorem ref_agg2 : Cert.ReferenceIdeal.Read.val_main_v36 (F := Ideal) x ei w2 b3 w4
    = aggregate128 ei (Cert.ReferenceIdeal.Read.val_main_v22 (F := Ideal) x ei w2 b3 w4) := by
  rw [Cert.ReferenceIdeal.RefValue.agg2_def, Cert.ReferenceIdeal.RefValue.src_idx_eq, Cert.ReferenceIdeal.RefValue.dst_idx_eq]
  rfl

theorem ref_hidden : Cert.ReferenceIdeal.Read.val_main_v22 (F := Ideal) x ei w2 b3 w4 = hiddenOf ei x w2 w4 b3 := by
  funext j
  obtain ⟨p, g, rfl⟩ : ∃ (p : Fin 100000) (g : Fin 128), j = ix2 p g := ⟨j 0, j 1, eq_ix2 j⟩
  rw [Cert.ReferenceIdeal.RefValue.hidden_apply, hiddenOf_apply, ref_agg1]
  exact congrArg (fun v => max v (Ideal.ofBits .f32 0x00000000#32)) (add_right_comm _ _ _)

/-! ## The two results -/

/-- With real-valued node features, first-layer weights and bias, and second-layer relational weights, the kernel's
    result is the reference's result. -/
theorem kernel_eq_reference (hx : ∀ i, IsReal (x i)) (hw2 : ∀ i, IsReal (w2 i)) (hb3 : ∀ i, IsReal (b3 i))
    (hw4 : ∀ i, IsReal (w4 i)) (hw5 : ∀ i, IsReal (w5 i)) :
    resultOf x ei w2 b3 w4 w5 b6 w7 = Cert.ReferenceIdeal.Read.val_main_v44 (F := Ideal) x ei w2 b3 w4 w5 b6 w7 := by
  funext i
  obtain ⟨n, u, rfl⟩ : ∃ (n : Fin 100000) (u : Fin 64), i = ix2 n u := ⟨i 0, i 1, eq_ix2 i⟩
  rw [Cert.ReferenceIdeal.RefValue.out_apply, resultOf_apply, ref_agg2, ref_hidden, aggregate64_apply]
  simp only [aggregate128_apply, prodOf_apply]
  have key := sum_mul_exchange (inEdges ei n) (fun e k => hiddenOf ei x w2 w4 b3 (ix2 (srcOf ei e) k))
    (fun k => w5 (ix2 u k)) (Ideal.ofBits .f32 0x00000000#32) Ideal.ofBits_zero_f32
    (fun e _ k => hiddenOf_real ei x w2 w4 b3 hx hw2 hb3 hw4 (srcOf ei e) k) (fun k => hw5 _)
  beta_reduce at key
  rw [key]
  exact add_right_comm _ _ _

end Cert.Bridge

end
-- ==== Proof.lean ====
/-
  A two-layer graph convolution: the kernel against its reference, equal on the extended reals.

  Both programs compute, for node features x : [100000, 128], an edge list [2, 1600000] and two layers' weights,
      H   = relu (A(x)·W₁ᵀ + b₁ + x·R₁ᵀ),        out = A(H)·W₂ᵀ + b₂ + H·R₂ᵀ,
  where A(t) adds, into each node's row, the rows of t that its incoming edges read. The kernel forms H in one pipelined
  region, the two products H·W₂ᵀ and H·R₂ᵀ in a second, aggregates the NARROW product H·W₂ᵀ on the host, and adds the three
  summands in a third region; the reference aggregates H and multiplies afterwards. The two are equal because a product
  distributes over the finite sum of an aggregation when every entry is a real number, which the precondition (every
  float argument finite) gives for x, W₁, b₁, R₁, W₂ and hence for H.

  The three frames are the generated ones (the reference's is its generated run with the result dropped). The ideal pass
  rewrote nothing, so `preserves` is trivial. For `algebraic`: the kernel's run with its result named (KernelRun), that
  result unwound region by region to one term of the arguments (KernelPayloads, KernelRegions, KernelFold), the reference's
  generated run read at an index (RefValue), the arguments decoded as real-valued (Finite), and the two terms joined
  (Bridge, over LibEdgeRows and LibRealSums).
-/
import proofs.«178896_j22565758173359_2_alg».proof.Defs
import proofs.«178896_j22565758173359_2_alg».proof.Proof.Gen.Kernel
import proofs.«178896_j22565758173359_2_alg».proof.Proof.Gen.Kernel.Skeleton
import proofs.«178896_j22565758173359_2_alg».proof.Proof.Gen.Kernel.Launch
import proofs.«178896_j22565758173359_2_alg».proof.Proof.Gen.Kernel.Points
import proofs.«178896_j22565758173359_2_alg».proof.Proof.Gen.Kernel.Frame
import proofs.«178896_j22565758173359_2_alg».proof.Proof.Gen.KernelIdeal
import proofs.«178896_j22565758173359_2_alg».proof.Proof.Gen.KernelIdeal.Skeleton
import proofs.«178896_j22565758173359_2_alg».proof.Proof.Gen.KernelIdeal.Launch
import proofs.«178896_j22565758173359_2_alg».proof.Proof.Gen.KernelIdeal.Points
import proofs.«178896_j22565758173359_2_alg».proof.Proof.Gen.KernelIdeal.Frame
import proofs.«178896_j22565758173359_2_alg».proof.Proof.Gen.ReferenceIdeal
import proofs.«178896_j22565758173359_2_alg».proof.Proof.Gen.Pre_finite_inputs
import proofs.«178896_j22565758173359_2_alg».proof.Proof.Gen.ReferenceIdeal.Run
import proofs.«178896_j22565758173359_2_alg».proof.Proof.Gen.ReferenceIdeal.Read
import proofs.«178896_j22565758173359_2_alg».proof.Proof.KernelRun
import proofs.«178896_j22565758173359_2_alg».proof.Proof.KernelFold
import proofs.«178896_j22565758173359_2_alg».proof.Proof.RefValue
import proofs.«178896_j22565758173359_2_alg».proof.Proof.Finite
import proofs.«178896_j22565758173359_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs run, and end with the same result array: the kernel's is
    `Fold.result` of its memory (the run with the result named, then the fold unwound), the reference's is its generated
    term read as `val_main_v44` of the same arguments, and the two are one function when the float arguments are real. -/
theorem algebraic : Cert.algebraic_KernelIdeal_ReferenceIdeal := by
  intro m ρ m' ρ' hpre hagree
  refine ⟨fun c => Cert.KernelIdeal.Fold.result m c, ?_, ?_⟩
  · exact (θ_run Cert.KernelIdeal.defs _ _).mono
      (fun r h c => ⟨(h c).1.trans (Cert.KernelIdeal.Fold.W6_result m ρ c), (h c).2⟩)
      (Cert.KernelIdeal.Run.run_value (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    obtain ⟨h0, h2, h3, h4, h5, -, -⟩ := Cert.Finite.real_args m hpre c
    exact (Cert.Bridge.kernel_eq_reference (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg3))
      (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg6)) h0 h2 h3 h4 h5).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
